-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_7" .f32 0x3E124925#32 ((1 / 7 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v187)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v187) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S7x2x400000 : Shape := ⟨3, ![7, 2, 400000]⟩
abbrev S7x128x128 : Shape := ⟨3, ![7, 128, 128]⟩
abbrev S7x128 : Shape := ⟨2, ![7, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_

variable [Facts]

def fn {F : FTy → Type} [FloatOps F] (main_arg0 : FVec F S100000x128 .f32) (main_arg1 : IVec S7x2x400000 32) (main_arg2 : FVec F S7x128x128 .f32) (main_arg3 : FVec F S7x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S7x128x128 .f32 := Host.absf main_arg2
  let main_cst_0 : FVec F S_ .f32 := constant S_ .f32 0x7F800000#32
  let main_v5 : FVec F S7x128x128 .f32 := broadcastInDim S7x128x128 ![] bcast_S_S7x128x128 main_cst_0
  let main_v6 : IVec S7x128x128 1 := cmpf .olt main_v4 main_v5
  let main_c_1 : IVec S_ 1 := constantI S_ 1 1#1
  let main_v7 : IVec S_ 1 := (fun x v => Host.reduce IntOp.andi x v reducesTo_S7x128x128_S_d0_1_2 h_S_) main_v6 main_c_1
  let main_v8 : IVec S_ 1 := andi main_v3 main_v7
  let main_v9 : FVec F S7x128 .f32 := Host.absf main_arg3
  let main_cst_2 : FVec F S_ .f32 := constant S_ .f32 0x7F800000#32
  let main_v10 : FVec F S7x128 .f32 := broadcastInDim S7x128 ![] bcast_S_S7x128 main_cst_2
  let main_v11 : IVec S7x128 1 := cmpf .olt main_v9 main_v10
  let main_c_3 : IVec S_ 1 := constantI S_ 1 1#1
  let main_v12 : IVec S_ 1 := (fun x v => Host.reduce IntOp.andi x v reducesTo_S7x128_S_d0_1 h_S_) main_v11 main_c_3
  let main_v13 : IVec S_ 1 := andi main_v8 main_v12
  main_v13
-- ==== Kernel.lean ====
abbrev S100000x128 : Shape := ⟨2, ![100000, 128]⟩
abbrev S7x2x400000 : Shape := ⟨3, ![7, 2, 400000]⟩
abbrev S7x128x128 : Shape := ⟨3, ![7, 128, 128]⟩
abbrev S7x128 : Shape := ⟨2, ![7, 128]⟩
abbrev S1x1x400000 : Shape := ⟨3, ![1, 1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S100000 : Shape := ⟨1, ![100000]⟩
abbrev S100000x1 : Shape := ⟨2, ![100000, 1]⟩
abbrev S1x100000x128 : Shape := ⟨3, ![1, 100000, 128]⟩
abbrev S7x100000x128 : Shape := ⟨3, ![7, 100000, 128]⟩
abbrev S128 : Shape := ⟨1, ![128]⟩
abbrev S1x128 : Shape := ⟨2, ![1, 128]⟩
abbrev S7x5000x128 : Shape := ⟨3, ![7, 5000, 128]⟩
abbrev S5000x128 : Shape := ⟨2, ![5000, 128]⟩
abbrev S1x5000x128 : Shape := ⟨3, ![1, 5000, 128]⟩
abbrev S1x128x128 : Shape := ⟨3, ![1, 128, 128]⟩
abbrev S128x128 : Shape := ⟨2, ![128, 128]⟩

abbrev nBuf : Space → Nat
  | .hbm => 235
  | .vmem => 6
  | .smem => 0
  | _ => 0

abbrev hbmTy0_0 (i : Nat) : BufTy := match i % 128 with
  | 0 => ⟨S100000x128, .f32⟩
  | 1 => ⟨S7x2x400000, .i32⟩
  | 2 => ⟨S7x128x128, .f32⟩
  | 3 => ⟨S7x128, .f32⟩
  | 4 => ⟨S100000x128, .bf16⟩
  | 5 => ⟨S1x1x400000, .i32⟩
  | 6 => ⟨S400000, .i32⟩
  | 7 => ⟨S1x1x400000, .i32⟩
  | 8 => ⟨S400000, .i32⟩
  | 9 => ⟨S_, .i32⟩
  | 10 => ⟨S400000, .i32⟩
  | 11 => ⟨S400000, .i1⟩
  | 12 => ⟨S_, .i32⟩
  | 13 => ⟨S400000, .i32⟩
  | 14 => ⟨S400000, .i32⟩
  | 15 => ⟨S400000, .i32⟩
  | 16 => ⟨S400000x1, .i32⟩
  | 17 => ⟨S400000x128, .bf16⟩
  | 18 => ⟨S400000x128, .f32⟩
  | 19 => ⟨S_, .f32⟩
  | 20 => ⟨S100000x128, .f32⟩
  | 21 => ⟨S400000x1, .i32⟩
  | 22 => ⟨S100000x128, .f32⟩
  | 23 => ⟨S_, .f32⟩
  | 24 => ⟨S400000, .f32⟩
  | 25 => ⟨S_, .f32⟩
  | 26 => ⟨S100000, .f32⟩
  | 27 => ⟨S400000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S100000x128, .bf16⟩
  | 36 => ⟨S1x1x400000, .i32⟩
  | 37 => ⟨S400000, .i32⟩
  | 38 => ⟨S1x1x400000, .i32⟩
  | 39 => ⟨S400000, .i32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000x128, .bf16⟩
  | 49 => ⟨S400000x128, .f32⟩
  | 50 => ⟨S_, .f32⟩
  | 51 => ⟨S100000x128, .f32⟩
  | 52 => ⟨S400000x1, .i32⟩
  | 53 => ⟨S100000x128, .f32⟩
  | 54 => ⟨S_, .f32⟩
  | 55 => ⟨S400000, .f32⟩
  | 56 => ⟨S_, .f32⟩
  | 57 => ⟨S100000, .f32⟩
  | 58 => ⟨S400000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S100000x128, .bf16⟩
  | 67 => ⟨S1x1x400000, .i32⟩
  | 68 => ⟨S400000, .i32⟩
  | 69 => ⟨S1x1x400000, .i32⟩
  | 70 => ⟨S400000, .i32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000x128, .bf16⟩
  | 80 => ⟨S400000x128, .f32⟩
  | 81 => ⟨S_, .f32⟩
  | 82 => ⟨S100000x128, .f32⟩
  | 83 => ⟨S400000x1, .i32⟩
  | 84 => ⟨S100000x128, .f32⟩
  | 85 => ⟨S_, .f32⟩
  | 86 => ⟨S400000, .f32⟩
  | 87 => ⟨S_, .f32⟩
  | 88 => ⟨S100000, .f32⟩
  | 89 => ⟨S400000x1, .i32⟩
  | 90 => ⟨S100000, .f32⟩
  | 91 => ⟨S_, .f32⟩
  | 92 => ⟨S100000, .f32⟩
  | 93 => ⟨S100000, .f32⟩
  | 94 => ⟨S100000x1, .f32⟩
  | 95 => ⟨S100000x128, .f32⟩
  | 96 => ⟨S100000x128, .f32⟩
  | 97 => ⟨S100000x128, .bf16⟩
  | 98 => ⟨S1x1x400000, .i32⟩
  | 99 => ⟨S400000, .i32⟩
  | 100 => ⟨S1x1x400000, .i32⟩
  | 101 => ⟨S400000, .i32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x128, .bf16⟩
  | 111 => ⟨S400000x128, .f32⟩
  | 112 => ⟨S_, .f32⟩
  | 113 => ⟨S100000x128, .f32⟩
  | 114 => ⟨S400000x1, .i32⟩
  | 115 => ⟨S100000x128, .f32⟩
  | 116 => ⟨S_, .f32⟩
  | 117 => ⟨S400000, .f32⟩
  | 118 => ⟨S_, .f32⟩
  | 119 => ⟨S100000, .f32⟩
  | 120 => ⟨S400000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .bf16⟩
  | 1 => ⟨S1x1x400000, .i32⟩
  | 2 => ⟨S400000, .i32⟩
  | 3 => ⟨S1x1x400000, .i32⟩
  | 4 => ⟨S400000, .i32⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S400000x128, .bf16⟩
  | 14 => ⟨S400000x128, .f32⟩
  | 15 => ⟨S_, .f32⟩
  | 16 => ⟨S100000x128, .f32⟩
  | 17 => ⟨S400000x1, .i32⟩
  | 18 => ⟨S100000x128, .f32⟩
  | 19 => ⟨S_, .f32⟩
  | 20 => ⟨S400000, .f32⟩
  | 21 => ⟨S_, .f32⟩
  | 22 => ⟨S100000, .f32⟩
  | 23 => ⟨S400000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x128, .f32⟩
  | 30 => ⟨S100000x128, .f32⟩
  | 31 => ⟨S100000x128, .bf16⟩
  | 32 => ⟨S1x1x400000, .i32⟩
  | 33 => ⟨S400000, .i32⟩
  | 34 => ⟨S1x1x400000, .i32⟩
  | 35 => ⟨S400000, .i32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x128, .bf16⟩
  | 45 => ⟨S400000x128, .f32⟩
  | 46 => ⟨S_, .f32⟩
  | 47 => ⟨S100000x128, .f32⟩
  | 48 => ⟨S400000x1, .i32⟩
  | 49 => ⟨S100000x128, .f32⟩
  | 50 => ⟨S_, .f32⟩
  | 51 => ⟨S400000, .f32⟩
  | 52 => ⟨S_, .f32⟩
  | 53 => ⟨S100000, .f32⟩
  | 54 => ⟨S400000x1, .i32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x128, .f32⟩
  | 61 => ⟨S100000x128, .f32⟩
  | 62 => ⟨S100000x128, .bf16⟩
  | 63 => ⟨S1x1x400000, .i32⟩
  | 64 => ⟨S400000, .i32⟩
  | 65 => ⟨S1x1x400000, .i32⟩
  | 66 => ⟨S400000, .i32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x128, .bf16⟩
  | 76 => ⟨S400000x128, .f32⟩
  | 77 => ⟨S_, .f32⟩
  | 78 => ⟨S100000x128, .f32⟩
  | 79 => ⟨S400000x1, .i32⟩
  | 80 => ⟨S100000x128, .f32⟩
  | 81 => ⟨S_, .f32⟩
  | 82 => ⟨S400000, .f32⟩
  | 83 => ⟨S_, .f32⟩
  | 84 => ⟨S100000, .f32⟩
  | 85 => ⟨S400000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x128, .f32⟩
  | 92 => ⟨S100000x128, .f32⟩
  | 93 => ⟨S100000x128, .bf16⟩
  | 94 => ⟨S1x100000x128, .bf16⟩
  | 95 => ⟨S1x100000x128, .bf16⟩
  | 96 => ⟨S1x100000x128, .bf16⟩
  | 97 => ⟨S1x100000x128, .bf16⟩
  | 98 => ⟨S1x100000x128, .bf16⟩
  | 99 => ⟨S1x100000x128, .bf16⟩
  | 100 => ⟨S1x100000x128, .bf16⟩
  | 101 => ⟨S7x100000x128, .bf16⟩
  | 102 => ⟨S7x128x128, .bf16⟩
  | 103 => ⟨S_, .f32⟩
  | 104 => ⟨S128, .f32⟩
  | 105 => ⟨S1x128, .f32⟩
  | 106 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S7x5000x128, .bf16⟩
  | .local _ .vmem, ⟨1, _⟩ => ⟨S7x5000x128, .bf16⟩
  | .local _ .vmem, ⟨2, _⟩ => ⟨S7x128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_16 : Ref sig .tc := ⟨.hbm, 102, rfl⟩
abbrev main_v80 : Ref sig .tc := ⟨.hbm, 103, rfl⟩
abbrev main_v81 : Ref sig .tc := ⟨.hbm, 104, rfl⟩
abbrev main_c_17 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_18 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_19 : Ref sig .tc := ⟨.hbm, 116, rfl⟩
abbrev main_v91 : Ref sig .tc := ⟨.hbm, 117, rfl⟩
abbrev main_cst_20 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_21 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_22 : Ref sig .tc := ⟨.hbm, 133, rfl⟩
abbrev main_v105 : Ref sig .tc := ⟨.hbm, 134, rfl⟩
abbrev main_v106 : Ref sig .tc := ⟨.hbm, 135, rfl⟩
abbrev main_c_23 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_24 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_25 : Ref sig .tc := ⟨.hbm, 147, rfl⟩
abbrev main_v116 : Ref sig .tc := ⟨.hbm, 148, rfl⟩
abbrev main_cst_26 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_27 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_c_28 : Ref sig .tc := ⟨.hbm, 164, rfl⟩
abbrev main_v130 : Ref sig .tc := ⟨.hbm, 165, rfl⟩
abbrev main_v131 : Ref sig .tc := ⟨.hbm, 166, rfl⟩
abbrev main_c_29 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_30 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_31 : Ref sig .tc := ⟨.hbm, 178, rfl⟩
abbrev main_v141 : Ref sig .tc := ⟨.hbm, 179, rfl⟩
abbrev main_cst_32 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_33 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_c_34 : Ref sig .tc := ⟨.hbm, 195, rfl⟩
abbrev main_v155 : Ref sig .tc := ⟨.hbm, 196, rfl⟩
abbrev main_v156 : Ref sig .tc := ⟨.hbm, 197, rfl⟩
abbrev main_c_35 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_36 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_37 : Ref sig .tc := ⟨.hbm, 209, rfl⟩
abbrev main_v166 : Ref sig .tc := ⟨.hbm, 210, rfl⟩
abbrev main_cst_38 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_39 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_cst_40 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  slices_S7x2x400000_S1x1x400000_0_0_0 : S7x2x400000.Slices ![0, 0, 0] S1x1x400000
  shapeCasts_S1x1x400000_S400000 : S1x1x400000.ShapeCasts S400000
  slices_S7x2x400000_S1x1x400000_0_1_0 : S7x2x400000.Slices ![0, 1, 0] S1x1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S7x2x400000_S1x1x400000_1_0_0 : S7x2x400000.Slices ![1, 0, 0] S1x1x400000
  slices_S7x2x400000_S1x1x400000_1_1_0 : S7x2x400000.Slices ![1, 1, 0] S1x1x400000
  slices_S7x2x400000_S1x1x400000_2_0_0 : S7x2x400000.Slices ![2, 0, 0] S1x1x400000
  slices_S7x2x400000_S1x1x400000_2_1_0 : S7x2x400000.Slices ![2, 1, 0] S1x1x400000
  slices_S7x2x400000_S1x1x400000_3_0_0 : S7x2x400000.Slices ![3, 0, 0] S1x1x400000
  slices_S7x2x400000_S1x1x400000_3_1_0 : S7x2x400000.Slices ![3, 1, 0] S1x1x400000
  slices_S7x2x400000_S1x1x400000_4_0_0 : S7x2x400000.Slices ![4, 0, 0] S1x1x400000
  slices_S7x2x400000_S1x1x400000_4_1_0 : S7x2x400000.Slices ![4, 1, 0] S1x1x400000
  slices_S7x2x400000_S1x1x400000_5_0_0 : S7x2x400000.Slices ![5, 0, 0] S1x1x400000
  slices_S7x2x400000_S1x1x400000_5_1_0 : S7x2x400000.Slices ![5, 1, 0] S1x1x400000
  slices_S7x2x400000_S1x1x400000_6_0_0 : S7x2x400000.Slices ![6, 0, 0] S1x1x400000
  slices_S7x2x400000_S1x1x400000_6_1_0 : S7x2x400000.Slices ![6, 1, 0] S1x1x400000
  bcast_S100000x128_S1x100000x128_1_2 : S100000x128.BroadcastsInDim S1x100000x128 (![1, 2] : Fin 2 → Fin S1x100000x128.rank)
  concatenates_S1x100000x128_S1x100000x128_S1x100000x128_S1x100000x128_S1x100000x128_S1x100000x128_S1x100000x128_S7x100000x128_d0 : Shape.Concatenates [S1x100000x128, S1x100000x128, S1x100000x128, S1x100000x128, S1x100000x128, S1x100000x128, S1x100000x128] S7x100000x128 0
  reducesTo_S7x128_S128_d0 : S7x128.ReducesTo [0] S128
  h_S_ : 0 < S_.numel
  bcast_S128_S1x128_1 : S128.BroadcastsInDim S1x128 (![1] : Fin 1 → Fin S1x128.rank)
  inb_S7x5000x128_S1x5000x128_0_0_0 : ∀ a, (![0, 0, 0] : Fin 3 → Nat) a + S1x5000x128.size a ≤ S7x5000x128.size a
  h_S1x5000x128 : 0 < S1x5000x128.numel
  shapeCasts_S1x5000x128_S5000x128 : S1x5000x128.ShapeCasts S5000x128
  inb_S7x128x128_S1x128x128_0_0_0 : ∀ a, (![0, 0, 0] : Fin 3 → Nat) a + S1x128x128.size a ≤ S7x128x128.size a
  h_S1x128x128 : 0 < S1x128x128.numel
  shapeCasts_S1x128x128_S128x128 : S1x128x128.ShapeCasts S128x128
  inb_S7x5000x128_S1x5000x128_1_0_0 : ∀ a, (![1, 0, 0] : Fin 3 → Nat) a + S1x5000x128.size a ≤ S7x5000x128.size a
  inb_S7x128x128_S1x128x128_1_0_0 : ∀ a, (![1, 0, 0] : Fin 3 → Nat) a + S1x128x128.size a ≤ S7x128x128.size a
  inb_S7x5000x128_S1x5000x128_2_0_0 : ∀ a, (![2, 0, 0] : Fin 3 → Nat) a + S1x5000x128.size a ≤ S7x5000x128.size a
  inb_S7x128x128_S1x128x128_2_0_0 : ∀ a, (![2, 0, 0] : Fin 3 → Nat) a + S1x128x128.size a ≤ S7x128x128.size a
  inb_S7x5000x128_S1x5000x128_3_0_0 : ∀ a, (![3, 0, 0] : Fin 3 → Nat) a + S1x5000x128.size a ≤ S7x5000x128.size a
  inb_S7x128x128_S1x128x128_3_0_0 : ∀ a, (![3, 0, 0] : Fin 3 → Nat) a + S1x128x128.size a ≤ S7x128x128.size a
  inb_S7x5000x128_S1x5000x128_4_0_0 : ∀ a, (![4, 0, 0] : Fin 3 → Nat) a + S1x5000x128.size a ≤ S7x5000x128.size a
  inb_S7x128x128_S1x128x128_4_0_0 : ∀ a, (![4, 0, 0] : Fin 3 → Nat) a + S1x128x128.size a ≤ S7x128x128.size a
  inb_S7x5000x128_S1x5000x128_5_0_0 : ∀ a, (![5, 0, 0] : Fin 3 → Nat) a + S1x5000x128.size a ≤ S7x5000x128.size a
  inb_S7x128x128_S1x128x128_5_0_0 : ∀ a, (![5, 0, 0] : Fin 3 → Nat) a + S1x128x128.size a ≤ S7x128x128.size a
  inb_S7x5000x128_S1x5000x128_6_0_0 : ∀ a, (![6, 0, 0] : Fin 3 → Nat) a + S1x5000x128.size a ≤ S7x5000x128.size a
  inb_S7x128x128_S1x128x128_6_0_0 : ∀ a, (![6, 0, 0] : Fin 3 → Nat) a + S1x128x128.size a ≤ S7x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x5000x128.size a ≤ S7x100000x128.size a
  hwx0_0 : ∀ i : grid0.Coords, EltTy.bits .bf16 = 32 ∨ (Rect.block (s := S7x100000x128) S7x5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x128x128.size a ≤ S7x128x128.size a
  hwx0_1 : ∀ i : grid0.Coords, EltTy.bits .bf16 = 32 ∨ (Rect.block (s := S7x128x128) S7x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v183) S7x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v184) S7x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v186) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v187) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S7x2x400000 : Shape := ⟨3, ![7, 2, 400000]⟩
abbrev S7x128x128 : Shape := ⟨3, ![7, 128, 128]⟩
abbrev S7x128 : Shape := ⟨2, ![7, 128]⟩
abbrev S_ : Shape := ⟨0, ![]⟩
abbrev S1x1x400000 : Shape := ⟨3, ![1, 1, 400000]⟩
abbrev S400000 : Shape := ⟨1, ![400000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S400000x1 : Shape := ⟨2, ![400000, 1]⟩
abbrev S400000x128 : Shape := ⟨2, ![400000, 128]⟩
abbrev S100000 : Shape := ⟨1, ![100000]⟩
abbrev S100000x1 : Shape := ⟨2, ![100000, 1]⟩

abbrev nBuf : Space → Nat
  | .hbm => 275
  | .vmem => 0
  | .smem => 0
  | _ => 0

abbrev hbmTy0_0 (i : Nat) : BufTy := match i % 128 with
  | 0 => ⟨S100000x128, .f32⟩
  | 1 => ⟨S7x2x400000, .i32⟩
  | 2 => ⟨S7x128x128, .f32⟩
  | 3 => ⟨S7x128, .f32⟩
  | 4 => ⟨S_, .f32⟩
  | 5 => ⟨S100000x128, .f32⟩
  | 6 => ⟨S1x1x400000, .i32⟩
  | 7 => ⟨S400000, .i32⟩
  | 8 => ⟨S1x1x400000, .i32⟩
  | 9 => ⟨S400000, .i32⟩
  | 10 => ⟨S1x128x128, .f32⟩
  | 11 => ⟨S128x128, .f32⟩
  | 12 => ⟨S1x128, .f32⟩
  | 13 => ⟨S128, .f32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x128, .f32⟩
  | 23 => ⟨S_, .f32⟩
  | 24 => ⟨S100000x128, .f32⟩
  | 25 => ⟨S400000x1, .i32⟩
  | 26 => ⟨S100000x128, .f32⟩
  | 27 => ⟨S_, .f32⟩
  | 28 => ⟨S400000, .f32⟩
  | 29 => ⟨S_, .f32⟩
  | 30 => ⟨S100000, .f32⟩
  | 31 => ⟨S400000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S100000x128, .f32⟩
  | 44 => ⟨S1x1x400000, .i32⟩
  | 45 => ⟨S400000, .i32⟩
  | 46 => ⟨S1x1x400000, .i32⟩
  | 47 => ⟨S400000, .i32⟩
  | 48 => ⟨S1x128x128, .f32⟩
  | 49 => ⟨S128x128, .f32⟩
  | 50 => ⟨S1x128, .f32⟩
  | 51 => ⟨S128, .f32⟩
  | 52 => ⟨S_, .i32⟩
  | 53 => ⟨S400000, .i32⟩
  | 54 => ⟨S400000, .i1⟩
  | 55 => ⟨S_, .i32⟩
  | 56 => ⟨S400000, .i32⟩
  | 57 => ⟨S400000, .i32⟩
  | 58 => ⟨S400000, .i32⟩
  | 59 => ⟨S400000x1, .i32⟩
  | 60 => ⟨S400000x128, .f32⟩
  | 61 => ⟨S_, .f32⟩
  | 62 => ⟨S100000x128, .f32⟩
  | 63 => ⟨S400000x1, .i32⟩
  | 64 => ⟨S100000x128, .f32⟩
  | 65 => ⟨S_, .f32⟩
  | 66 => ⟨S400000, .f32⟩
  | 67 => ⟨S_, .f32⟩
  | 68 => ⟨S100000, .f32⟩
  | 69 => ⟨S400000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S100000x128, .f32⟩
  | 82 => ⟨S1x1x400000, .i32⟩
  | 83 => ⟨S400000, .i32⟩
  | 84 => ⟨S1x1x400000, .i32⟩
  | 85 => ⟨S400000, .i32⟩
  | 86 => ⟨S1x128x128, .f32⟩
  | 87 => ⟨S128x128, .f32⟩
  | 88 => ⟨S1x128, .f32⟩
  | 89 => ⟨S128, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x128, .f32⟩
  | 99 => ⟨S_, .f32⟩
  | 100 => ⟨S100000x128, .f32⟩
  | 101 => ⟨S400000x1, .i32⟩
  | 102 => ⟨S100000x128, .f32⟩
  | 103 => ⟨S_, .f32⟩
  | 104 => ⟨S400000, .f32⟩
  | 105 => ⟨S_, .f32⟩
  | 106 => ⟨S100000, .f32⟩
  | 107 => ⟨S400000x1, .i32⟩
  | 108 => ⟨S100000, .f32⟩
  | 109 => ⟨S_, .f32⟩
  | 110 => ⟨S100000, .f32⟩
  | 111 => ⟨S100000, .f32⟩
  | 112 => ⟨S100000x1, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S100000x128, .f32⟩
  | 120 => ⟨S1x1x400000, .i32⟩
  | 121 => ⟨S400000, .i32⟩
  | 122 => ⟨S1x1x400000, .i32⟩
  | 123 => ⟨S400000, .i32⟩
  | 124 => ⟨S1x128x128, .f32⟩
  | 125 => ⟨S128x128, .f32⟩
  | 126 => ⟨S1x128, .f32⟩
  | 127 => ⟨S128, .f32⟩
  | _ => ⟨S100000x128, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S400000x128, .f32⟩
  | 9 => ⟨S_, .f32⟩
  | 10 => ⟨S100000x128, .f32⟩
  | 11 => ⟨S400000x1, .i32⟩
  | 12 => ⟨S100000x128, .f32⟩
  | 13 => ⟨S_, .f32⟩
  | 14 => ⟨S400000, .f32⟩
  | 15 => ⟨S_, .f32⟩
  | 16 => ⟨S100000, .f32⟩
  | 17 => ⟨S400000x1, .i32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S100000x128, .f32⟩
  | 30 => ⟨S1x1x400000, .i32⟩
  | 31 => ⟨S400000, .i32⟩
  | 32 => ⟨S1x1x400000, .i32⟩
  | 33 => ⟨S400000, .i32⟩
  | 34 => ⟨S1x128x128, .f32⟩
  | 35 => ⟨S128x128, .f32⟩
  | 36 => ⟨S1x128, .f32⟩
  | 37 => ⟨S128, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x128, .f32⟩
  | 47 => ⟨S_, .f32⟩
  | 48 => ⟨S100000x128, .f32⟩
  | 49 => ⟨S400000x1, .i32⟩
  | 50 => ⟨S100000x128, .f32⟩
  | 51 => ⟨S_, .f32⟩
  | 52 => ⟨S400000, .f32⟩
  | 53 => ⟨S_, .f32⟩
  | 54 => ⟨S100000, .f32⟩
  | 55 => ⟨S400000x1, .i32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S100000x128, .f32⟩
  | 68 => ⟨S1x1x400000, .i32⟩
  | 69 => ⟨S400000, .i32⟩
  | 70 => ⟨S1x1x400000, .i32⟩
  | 71 => ⟨S400000, .i32⟩
  | 72 => ⟨S1x128x128, .f32⟩
  | 73 => ⟨S128x128, .f32⟩
  | 74 => ⟨S1x128, .f32⟩
  | 75 => ⟨S128, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x128, .f32⟩
  | 85 => ⟨S_, .f32⟩
  | 86 => ⟨S100000x128, .f32⟩
  | 87 => ⟨S400000x1, .i32⟩
  | 88 => ⟨S100000x128, .f32⟩
  | 89 => ⟨S_, .f32⟩
  | 90 => ⟨S400000, .f32⟩
  | 91 => ⟨S_, .f32⟩
  | 92 => ⟨S100000, .f32⟩
  | 93 => ⟨S400000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S100000x128, .f32⟩
  | 106 => ⟨S1x1x400000, .i32⟩
  | 107 => ⟨S400000, .i32⟩
  | 108 => ⟨S1x1x400000, .i32⟩
  | 109 => ⟨S400000, .i32⟩
  | 110 => ⟨S1x128x128, .f32⟩
  | 111 => ⟨S128x128, .f32⟩
  | 112 => ⟨S1x128, .f32⟩
  | 113 => ⟨S128, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x128, .f32⟩
  | 123 => ⟨S_, .f32⟩
  | 124 => ⟨S100000x128, .f32⟩
  | 125 => ⟨S400000x1, .i32⟩
  | 126 => ⟨S100000x128, .f32⟩
  | 127 => ⟨S_, .f32⟩
  | _ => ⟨S100000x128, .f32⟩

abbrev hbmTy0_2 (i : Nat) : BufTy := match i % 128 with
  | 0 => ⟨S400000, .f32⟩
  | 1 => ⟨S_, .f32⟩
  | 2 => ⟨S100000, .f32⟩
  | 3 => ⟨S400000x1, .i32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S100000x128, .f32⟩
  | 16 => ⟨S_, .f32⟩
  | 17 => ⟨S100000x128, .f32⟩
  | 18 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_c_11 : Ref sig .tc := ⟨.hbm, 90, rfl⟩
abbrev main_v73 : Ref sig .tc := ⟨.hbm, 91, rfl⟩
abbrev main_v74 : Ref sig .tc := ⟨.hbm, 92, rfl⟩
abbrev main_c_12 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_13 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_14 : Ref sig .tc := ⟨.hbm, 103, rfl⟩
abbrev main_v83 : Ref sig .tc := ⟨.hbm, 104, rfl⟩
abbrev main_cst_15 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_16 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_c_17 : Ref sig .tc := ⟨.hbm, 128, rfl⟩
abbrev main_v105 : Ref sig .tc := ⟨.hbm, 129, rfl⟩
abbrev main_v106 : Ref sig .tc := ⟨.hbm, 130, rfl⟩
abbrev main_c_18 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_19 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_20 : Ref sig .tc := ⟨.hbm, 141, rfl⟩
abbrev main_v115 : Ref sig .tc := ⟨.hbm, 142, rfl⟩
abbrev main_cst_21 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_22 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_c_23 : Ref sig .tc := ⟨.hbm, 166, rfl⟩
abbrev main_v137 : Ref sig .tc := ⟨.hbm, 167, rfl⟩
abbrev main_v138 : Ref sig .tc := ⟨.hbm, 168, rfl⟩
abbrev main_c_24 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_25 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_cst_26 : Ref sig .tc := ⟨.hbm, 179, rfl⟩
abbrev main_v147 : Ref sig .tc := ⟨.hbm, 180, rfl⟩
abbrev main_cst_27 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_cst_28 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_c_29 : Ref sig .tc := ⟨.hbm, 204, rfl⟩
abbrev main_v169 : Ref sig .tc := ⟨.hbm, 205, rfl⟩
abbrev main_v170 : Ref sig .tc := ⟨.hbm, 206, rfl⟩
abbrev main_c_30 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_cst_31 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_cst_32 : Ref sig .tc := ⟨.hbm, 217, rfl⟩
abbrev main_v179 : Ref sig .tc := ⟨.hbm, 218, rfl⟩
abbrev main_cst_33 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_cst_34 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_c_35 : Ref sig .tc := ⟨.hbm, 242, rfl⟩
abbrev main_v201 : Ref sig .tc := ⟨.hbm, 243, rfl⟩
abbrev main_v202 : Ref sig .tc := ⟨.hbm, 244, rfl⟩
abbrev main_c_36 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_cst_37 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_cst_38 : Ref sig .tc := ⟨.hbm, 255, rfl⟩
abbrev main_v211 : Ref sig .tc := ⟨.hbm, 256, rfl⟩
abbrev main_cst_39 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_cst_40 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_cst_41 : Ref sig .tc := ⟨.hbm, 272, rfl⟩
abbrev main_v225 : Ref sig .tc := ⟨.hbm, 273, rfl⟩
abbrev main_v226 : Ref sig .tc := ⟨.hbm, 274, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S7x2x400000_S1x1x400000_0_0_0 : S7x2x400000.Slices ![0, 0, 0] S1x1x400000
  shapeCasts_S1x1x400000_S400000 : S1x1x400000.ShapeCasts S400000
  slices_S7x2x400000_S1x1x400000_0_1_0 : S7x2x400000.Slices ![0, 1, 0] S1x1x400000
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  bcast_S_S400000 : S_.BroadcastsInDim S400000 (![] : Fin 0 → Fin S400000.rank)
  bcast_S400000_S400000x1_0 : S400000.BroadcastsInDim S400000x1 (![0] : Fin 1 → Fin S400000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S7x2x400000_S1x1x400000_1_0_0 : S7x2x400000.Slices ![1, 0, 0] S1x1x400000
  slices_S7x2x400000_S1x1x400000_1_1_0 : S7x2x400000.Slices ![1, 1, 0] S1x1x400000
  slices_S7x128x128_S1x128x128_1_0_0 : S7x128x128.Slices ![1, 0, 0] S1x128x128
  slices_S7x128_S1x128_1_0 : S7x128.Slices ![1, 0] S1x128
  slices_S7x2x400000_S1x1x400000_2_0_0 : S7x2x400000.Slices ![2, 0, 0] S1x1x400000
  slices_S7x2x400000_S1x1x400000_2_1_0 : S7x2x400000.Slices ![2, 1, 0] S1x1x400000
  slices_S7x128x128_S1x128x128_2_0_0 : S7x128x128.Slices ![2, 0, 0] S1x128x128
  slices_S7x128_S1x128_2_0 : S7x128.Slices ![2, 0] S1x128
  slices_S7x2x400000_S1x1x400000_3_0_0 : S7x2x400000.Slices ![3, 0, 0] S1x1x400000
  slices_S7x2x400000_S1x1x400000_3_1_0 : S7x2x400000.Slices ![3, 1, 0] S1x1x400000
  slices_S7x128x128_S1x128x128_3_0_0 : S7x128x128.Slices ![3, 0, 0] S1x128x128
  slices_S7x128_S1x128_3_0 : S7x128.Slices ![3, 0] S1x128
  slices_S7x2x400000_S1x1x400000_4_0_0 : S7x2x400000.Slices ![4, 0, 0] S1x1x400000
  slices_S7x2x400000_S1x1x400000_4_1_0 : S7x2x400000.Slices ![4, 1, 0] S1x1x400000
  slices_S7x128x128_S1x128x128_4_0_0 : S7x128x128.Slices ![4, 0, 0] S1x128x128
  slices_S7x128_S1x128_4_0 : S7x128.Slices ![4, 0] S1x128
  slices_S7x2x400000_S1x1x400000_5_0_0 : S7x2x400000.Slices ![5, 0, 0] S1x1x400000
  slices_S7x2x400000_S1x1x400000_5_1_0 : S7x2x400000.Slices ![5, 1, 0] S1x1x400000
  slices_S7x128x128_S1x128x128_5_0_0 : S7x128x128.Slices ![5, 0, 0] S1x128x128
  slices_S7x128_S1x128_5_0 : S7x128.Slices ![5, 0] S1x128
  slices_S7x2x400000_S1x1x400000_6_0_0 : S7x2x400000.Slices ![6, 0, 0] S1x1x400000
  slices_S7x2x400000_S1x1x400000_6_1_0 : S7x2x400000.Slices ![6, 1, 0] S1x1x400000
  slices_S7x128x128_S1x128x128_6_0_0 : S7x128x128.Slices ![6, 0, 0] S1x128x128
  slices_S7x128_S1x128_6_0 : S7x128.Slices ![6, 0] S1x128
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x128_S128x128_S100000x128_1_0_0_1_n_n_wf : DotDims.WF S100000x128 S128x128 S100000x128 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelBody.lean ====
import proofs.«161684_j41807211660046_2_alg».proof.Proof.Gen.Kernel.Launch
import proofs.«161684_j41807211660046_2_alg».proof.Proof.Gen.Kernel.Skeleton
import proofs.«161684_j41807211660046_2_alg».proof.Proof.Gen.Kernel.Points
import Idealize.ShloMosaic.Lib.Pipeline.FrameBody
import Idealize.ShloMosaic.Lib.Ring
import Idealize.ShloMosaic.Lib.Tactic

/-!
# The kernel body as a function of its three input blocks

The kernel function reads seven row-planes of its first block (the seven addends of a mean), the
seven matching weight matrices of its second block and the bias row of its third, and writes once,
over the whole of its output block: the sum of the seven products plus the bias, times the constant
the program carries for one seventh.
It also reads the output block before writing it, and drops that value. So whatever the output block
held, it holds afterwards the one stored value, which depends on the three input blocks only; and the
input blocks are left as they were. This file states that as a weakest-precondition triple.
-/

-- deciding that a point lies in a rectangle of 5000 rows recurses once per row
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- Row-plane `s` of the first block: one addend of the mean, all 5000 rows and 128 lanes of it. -/
abbrev meanRect0 : Rect S7x5000x128 := Rect.unit (s := S7x5000x128) ![0, 0, 0] S1x5000x128.size inb_S7x5000x128_S1x5000x128_0_0_0
abbrev meanRect1 : Rect S7x5000x128 := Rect.unit (s := S7x5000x128) ![1, 0, 0] S1x5000x128.size inb_S7x5000x128_S1x5000x128_1_0_0
abbrev meanRect2 : Rect S7x5000x128 := Rect.unit (s := S7x5000x128) ![2, 0, 0] S1x5000x128.size inb_S7x5000x128_S1x5000x128_2_0_0
abbrev meanRect3 : Rect S7x5000x128 := Rect.unit (s := S7x5000x128) ![3, 0, 0] S1x5000x128.size inb_S7x5000x128_S1x5000x128_3_0_0
abbrev meanRect4 : Rect S7x5000x128 := Rect.unit (s := S7x5000x128) ![4, 0, 0] S1x5000x128.size inb_S7x5000x128_S1x5000x128_4_0_0
abbrev meanRect5 : Rect S7x5000x128 := Rect.unit (s := S7x5000x128) ![5, 0, 0] S1x5000x128.size inb_S7x5000x128_S1x5000x128_5_0_0
abbrev meanRect6 : Rect S7x5000x128 := Rect.unit (s := S7x5000x128) ![6, 0, 0] S1x5000x128.size inb_S7x5000x128_S1x5000x128_6_0_0

/-- Matrix `s` of the second block: the 128 × 128 weights that multiply addend `s`. -/
abbrev wRect0 : Rect S7x128x128 := Rect.unit (s := S7x128x128) ![0, 0, 0] S1x128x128.size inb_S7x128x128_S1x128x128_0_0_0
abbrev wRect1 : Rect S7x128x128 := Rect.unit (s := S7x128x128) ![1, 0, 0] S1x128x128.size inb_S7x128x128_S1x128x128_1_0_0
abbrev wRect2 : Rect S7x128x128 := Rect.unit (s := S7x128x128) ![2, 0, 0] S1x128x128.size inb_S7x128x128_S1x128x128_2_0_0
abbrev wRect3 : Rect S7x128x128 := Rect.unit (s := S7x128x128) ![3, 0, 0] S1x128x128.size inb_S7x128x128_S1x128x128_3_0_0
abbrev wRect4 : Rect S7x128x128 := Rect.unit (s := S7x128x128) ![4, 0, 0] S1x128x128.size inb_S7x128x128_S1x128x128_4_0_0
abbrev wRect5 : Rect S7x128x128 := Rect.unit (s := S7x128x128) ![5, 0, 0] S1x128x128.size inb_S7x128x128_S1x128x128_5_0_0
abbrev wRect6 : Rect S7x128x128 := Rect.unit (s := S7x128x128) ![6, 0, 0] S1x128x128.size inb_S7x128x128_S1x128x128_6_0_0

/-- The whole of the third block: the bias row. -/
abbrev biasRect : Rect S1x128 := Rect.unit (s := S1x128) ![0, 0] S1x128.size inb_S1x128_S1x128_0_0

/-- The whole of the output block. -/
abbrev outRect : Rect S5000x128 := Rect.unit (s := S5000x128) ![0, 0] S5000x128.size inb_S5000x128_S5000x128_0_0

/-! ## What the body stores, and what the output block then holds -/

/-- The value of the body's one store, as a function of the three input blocks: the first four
    products summed (`k0_pay2`), the fifth addend reshaped (`k0_pay3`), and the rest of the sum, the
    bias and the scaling (`k0_pay1`), each over the planes read through the rectangles above. -/
def stored (x0 : Vec F S7x5000x128 .bf16) (x1 : Vec F S7x128x128 .bf16) (x2 : Vec F S1x128 .f32) : Vec F S5000x128 .f32 :=
  k0_pay1
    (k0_pay2 (View.ld x0 meanRect0) (View.ld x1 wRect0) (View.ld x0 meanRect1) (View.ld x1 wRect1)
      (View.ld x0 meanRect2) (View.ld x1 wRect2) (View.ld x0 meanRect3) (View.ld x1 wRect3))
    (k0_pay3 (View.ld x0 meanRect4)) (View.ld x1 wRect4)
    (View.ld x0 meanRect5) (View.ld x1 wRect5)
    (View.ld x0 meanRect6) (View.ld x1 wRect6)
    (View.ld x2 biasRect)

/-- The output block after the body: the one write, over the whole block, read back pointwise. -/
def bodyOut (x0 : Vec F S7x5000x128 .bf16) (x1 : Vec F S7x128x128 .bf16) (x2 : Vec F S1x128 .f32) : Vec F S5000x128 .f32 :=
  View.canon [⟨outRect, stored x0 x1 x2⟩]

/-- The one write's rectangle is the whole block, so every point of the block lies in it. -/
theorem bodyOut_cover (p0 : Vec F S5000x128 .f32) (y : S5000x128.Idx) :
    ∃ pc ∈ ([⟨outRect, p0⟩] : List (View.Piece (Elt F) S5000x128 .f32)), y ∈ pc.1.set :=
  View.cover_of_tiled [⟨outRect, p0⟩] S5000x128.size (by rfl) y

/-! ## The triple -/

set_option maxHeartbeats 4000000 in
/-- Run on whole memrefs that hold `x0`, `x1`, `x2` and anything at all in the output's, the kernel
    function reaches its continuation with the three inputs' memrefs unchanged and the output's at
    `bodyOut x0 x1 x2`. The function is, definitionally, a sequence of sixteen loads and one store
    over the payload names; the loads of the inputs read `View.ld` of their contents, the load of the
    output is dropped, and the store's write over the whole block replaces whatever was there. -/
theorem body_triple (c : Dev nD) (E : Set ℕ) (i : grid0.Coords)
    (arg1 : Memref sig .tc .vmem S7x5000x128 .bf16) (harg1 : arg1.IsWhole)
    (arg2 : Memref sig .tc .vmem S7x128x128 .bf16) (harg2 : arg2.IsWhole)
    (arg3 : Memref sig .tc .vmem S1x128 .f32) (harg3 : arg3.IsWhole)
    (arg4 : Memref sig .tc .vmem S5000x128 .f32) (harg4 : arg4.IsWhole)
    (x0 : Vec F S7x5000x128 .bf16) (x1 : Vec F S7x128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (bodyOut x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (bodyOut_cover _)

end Cert.Kernel.Body

end
-- ==== Proof.KernelEntry.lean ====
/- The state in which program `Kernel`'s single region is entered, and what that gives a certificate.

   @main is a straight line of 230 host operations followed by one region of 20 grid points. This module fixes
   the contents of the TensorCore buffers when the region starts (`atEntry`: the launch contents pushed through the
   whole line), shows that @main reduces to the region at those contents, that the four arguments are still as
   launched there (no operation of the line has an argument as its result), names the block of each window's array
   at a grid point, shows that an input window's staging buffer holds exactly that block whenever the body is
   called, and finally turns a run that ends in the library's frame post-condition into a run after which the four
   arguments are unchanged. Everything is stated for an arbitrary float interpretation. -/
import proofs.«161684_j41807211660046_2_alg».proof.Proof.Gen.Kernel.Launch
import proofs.«161684_j41807211660046_2_alg».proof.Proof.Gen.Kernel.Skeleton
import proofs.«161684_j41807211660046_2_alg».proof.Proof.Gen.Kernel.Points
import Idealize.ShloMosaic.Lib.Pipeline.FrameBody
import Idealize.ShloMosaic.Lib.Ring
import Idealize.ShloMosaic.Lib.Tactic

-- the host line is a list of 230 entries; walking it entry by entry nests deeper than the default bound
set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at the region's entry -/

/-- What core `c`'s TensorCore buffer `b` holds when the region starts: the launch contents `m` after the 230 host
    operations have been applied in order, each replacing its result buffer and leaving every other one alone. -/
abbrev atEntry (c : Dev nD) (b : Ref sig .tc) : Buf (Elt F) ((c : Thread nD τ).loc b) :=
  StableHlo.after hostOps0 (fun b => m (c, b)) b

set_option maxHeartbeats 4000000 in
/-- None of the host operations allocates: each one's set of fresh buffers is empty, which holds by the definition of
    every builder, so the conjunction over the line is closed one entry at a time. -/
theorem hostOps0_fresh : (hostOps0 : List (HloOp τ sig (Elt F))).Forall fun op => op.fresh = ∅ := by
  simp only [List.Forall]; repeat' constructor

/-- @main up to the region. The line touches TensorCore references only and allocates nothing, and @main is the line
    followed by the region's call; so, owning the unscoped buffers at the launch contents, @main reduces to the
    region's call owning them at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-! ## The arguments are untouched by the host line

Every host operation writes exactly one buffer, its result, and no result is one of the four arguments. A buffer that
no operation of a line writes has after the line what it had before. The four statements differ only in the
reference: each unfolds the line, reads off every operation's written set as a singleton, and is left with 230
inequalities between distinct references, each decided. -/

set_option maxHeartbeats 4000000 in
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- The block of window `w`'s array that grid point `t` addresses, read from the array as it stands at the region's
    entry: for window 0 a [7, 5000, 128] slab of the concatenated operand, for windows 1 and 2 the whole array, for
    window 3 a [5000, 128] slab of the result. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! ## What an input window's staging buffer holds when the body runs

Take any proof data whose array for the window is the entry contents and whose body hands the window's buffer back
holding the point's block. The window is an input, is never idle and is not clipped; then at every point the buffer
the body receives holds what a fetch at that point would have put there — if the pipeline did fetch, trivially; if it
did not, the block index is the previous point's, and the previous body left that block in place. What a fetch
delivers is the block of the array, which is `blockAt`. Window 0 is fetched at every point; windows 1 and 2 only at
the first, their single block being the whole array. -/

theorem staged0_of {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t := by
  have hkeep : ∀ t, (cfg0.win 0).cut (cfg0.grid.coords t) (dat.after 0 t) = dat.blockOf 0 t := fun t => by
    rw [hafter]; unfold Dat.blockOf blockAt; rw [hA]; try rfl
  have hfetched : dat.fetched 0 t d = blockAt m c 0 t := by
    unfold Dat.fetched Dat.blockOf blockAt; rw [hA]; try rfl
  exact (dat.before_in_eq_fetched 0 rfl (fun _ => rfl) (fun _ _ _ => rfl) hkeep t d).trans hfetched

theorem staged1_of {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t := by
  have hkeep : ∀ t, (cfg0.win 1).cut (cfg0.grid.coords t) (dat.after 1 t) = dat.blockOf 1 t := fun t => by
    rw [hafter]; unfold Dat.blockOf blockAt; rw [hA]; try rfl
  have hfetched : dat.fetched 1 t d = blockAt m c 1 t := by
    unfold Dat.fetched Dat.blockOf blockAt; rw [hA]; try rfl
  exact (dat.before_in_eq_fetched 1 rfl (fun _ => rfl) (fun _ _ _ => rfl) hkeep t d).trans hfetched

theorem staged2_of {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t := by
  have hkeep : ∀ t, (cfg0.win 2).cut (cfg0.grid.coords t) (dat.after 2 t) = dat.blockOf 2 t := fun t => by
    rw [hafter]; unfold Dat.blockOf blockAt; rw [hA]; try rfl
  have hfetched : dat.fetched 2 t d = blockAt m c 2 t := by
    unfold Dat.fetched Dat.blockOf blockAt; rw [hA]; try rfl
  exact (dat.before_in_eq_fetched 2 rfl (fun _ => rfl) (fun _ _ _ => rfl) hkeep t d).trans hfetched

/-! ## From the frame post-condition to unchanged arguments -/

/-- The four windows stage intermediate buffers of the host line (the seven stacked per-type means, the weights rounded
    to bf16, the row of summed biases, and the result), never an argument. So each argument is an unscoped buffer that is no window's array: the
    region passes it by, and the frame post-condition says it ends holding what it held at the region's entry — which
    is the launch contents, the host line not having written it either. A run ending in the frame post-condition
    therefore ends with all four arguments as launched. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (atEntry_arg0 m c),
     ((h c).2 main_arg1 (Pipeline.mem_restRefs_of main_arg1 (by decide) (by decide))).trans (atEntry_arg1 m c),
     ((h c).2 main_arg2 (Pipeline.mem_restRefs_of main_arg2 (by decide) (by decide))).trans (atEntry_arg2 m c),
     ((h c).2 main_arg3 (Pipeline.mem_restRefs_of main_arg3 (by decide) (by decide))).trans (atEntry_arg3 m c)⟩) h

end Cert.Kernel.Entry

end
-- ==== Proof.KernelRun.lean ====
import proofs.«161684_j41807211660046_2_alg».proof.Proof.KernelBody
import proofs.«161684_j41807211660046_2_alg».proof.Proof.KernelEntry

/-!
# The run of the program and its frame

The program is a stretch of host operations and then one pipelined region over a grid of 20 points.
At each point the pipeline hands the kernel function the current staging buffer of each of its four
windows. The three input windows' buffers hold the windows' blocks of the arrays as the region finds
them; the kernel function leaves them so, and leaves in the output window's buffer a value that
depends on those three blocks only (`Body.bodyOut`). That is the whole of the proof data the
library's frame run asks for; it gives back that the run terminates, and where every array ends.
-/

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`. The arrays are as the region finds them. After the body at
    point `t` each input window's buffer holds that window's block at `t`, and the output window's
    holds `Body.bodyOut` of the three input blocks at `t`. Nothing is carried from point to point
    beyond the library's own invariant, every share is full, and nothing is owed. -/
def dats (_ : Fin 1) (c : Dev nD) : Dat τ (Elt F) Unit ℕ (UR sig nD τ) ℕ cfg0 c where
  A w := Entry.atEntry m c (Pipeline.arrRef spec0 w)
  after w t := match w with
    | ⟨0, _⟩ => Entry.blockAt m c 0 t
    | ⟨1, _⟩ => Entry.blockAt m c 1 t
    | ⟨2, _⟩ => Entry.blockAt m c 2 t
    | ⟨3, _⟩ => Body.bodyOut (Entry.blockAt m c 0 t) (Entry.blockAt m c 1 t) (Entry.blockAt m c 2 t)
  Φ _ := Pipeline.ΦA spec0 c
  q _ := fullShare
  owed _ := 0

/-- The proof data's arrays, projected: the contents at the region's entry are never unfolded. -/
theorem A_eq (c : Dev nD) (w : Fin cfg0.W) : (dats m 0 c).A w = Entry.atEntry m c (Pipeline.arrRef spec0 w) := by
  dsimp only [dats]

/-- What the body leaves in each window's buffer, window by window. -/
theorem after0 (c : Dev nD) (t : Fin cfg0.N) : (dats m 0 c).after 0 t = Entry.blockAt m c 0 t := by dsimp only [dats]
theorem after1 (c : Dev nD) (t : Fin cfg0.N) : (dats m 0 c).after 1 t = Entry.blockAt m c 1 t := by dsimp only [dats]
theorem after2 (c : Dev nD) (t : Fin cfg0.N) : (dats m 0 c).after 2 t = Entry.blockAt m c 2 t := by dsimp only [dats]
theorem after3 (c : Dev nD) (t : Fin cfg0.N) :
    (dats m 0 c).after 3 t = Body.bodyOut (Entry.blockAt m c 0 t) (Entry.blockAt m c 1 t) (Entry.blockAt m c 2 t) := by
  dsimp only [dats]

/-- What the body finds in each input window's buffer: the window's block at the point, whether the
    pipeline fetched it at this point or at an earlier one (the body never changes it in between). -/
theorem before0 (c : Dev nD) (t : Fin cfg0.N) (d) : (dats m 0 c).before 0 t d = Entry.blockAt m c 0 t :=
  Entry.staged0_of m (dats m 0 c) (A_eq m c 0) (after0 m c) t d
theorem before1 (c : Dev nD) (t : Fin cfg0.N) (d) : (dats m 0 c).before 1 t d = Entry.blockAt m c 1 t :=
  Entry.staged1_of m (dats m 0 c) (A_eq m c 1) (after1 m c) t d
theorem before2 (c : Dev nD) (t : Fin cfg0.N) (d) : (dats m 0 c).before 2 t d = Entry.blockAt m c 2 t :=
  Entry.staged2_of m (dats m 0 c) (A_eq m c 2) (after2 m c) t d

/-! ## The body at a point -/

/-- What the pipeline holds when it calls the body at point `t`: its invariant, what the core owes,
    and each window's current staging buffer, whole, at what the window holds before the body. -/
def atCall (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body must give back: the same, with each buffer at what the proof data says it leaves. -/
def atReturn (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. The three inputs' buffers hold their blocks (`before0`…`before2`) and the
    output's holds something, which is all `Body.body_triple` asks; what it returns is what the proof
    data promises. The invariant and the core's debt do not change from a point to the next, and the
    body does not touch them. -/
theorem body_at_point (c : Dev nD) (t : Fin cfg0.N) :
    atCall m c t ⊢ wp frame (wpE (defs₀ (F := F)) Variants.none c none) Set.univ (bodyAt0 t) (fun _ => atReturn m c t) := by
  unfold atCall atReturn bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (Body.body_triple c Set.univ (grid0.coords t) _ _ _ _ _ _ _ _ (Entry.blockAt m c 0 t) (Entry.blockAt m c 1 t) (Entry.blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation: its conjunction over the four windows, written out, is
    `body_at_point`. -/
theorem body_obligation (c : Dev nD) : BodyObligation (dats (F := F) m 0 c) (defs₀ (F := F)) Variants.none () Set.univ := fun t => by
  rw [bigSep_W0, bigSep_W0]
  exact body_at_point m c t

/-! ## The run and the frame -/

-- the frame run's implicit arguments are found by unifying its conclusion with the statement, which
-- unfolds plain definitions inside the type of a metavariable
set_option backward.isDefEq.respectTransparency.types false in
/-- From any memory with zero counters, every weakly fair execution of the program on the
    TensorCores terminates, and ends with every array of the pipeline at what the library computes
    from the proof data and every other unscoped buffer as the region found it. -/
theorem run_main : θ_run defs (onTc (τ := τ) (main (F := F))) (s₀ m ρ) (Pipeline.FramePost cfgs (dats m) 0 (Entry.atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := Entry.atEntry m) (hmain := Entry.main_to_region m Variants.none) (hA := A_eq m) (hΦ := fun _ _ => rfl)

/-- The frame: the program runs to completion and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Entry.frame_of_run m ρ (dats m) (A_eq m) (run_main m ρ)

end Cert.Kernel.Run

end
-- ==== Proof.KernelIdealBody.lean ====
import proofs.«161684_j41807211660046_2_alg».proof.Proof.Gen.KernelIdeal.Launch
import proofs.«161684_j41807211660046_2_alg».proof.Proof.Gen.KernelIdeal.Skeleton
import proofs.«161684_j41807211660046_2_alg».proof.Proof.Gen.KernelIdeal.Points
import Idealize.ShloMosaic.Lib.Pipeline.FrameBody
import Idealize.ShloMosaic.Lib.Ring
import Idealize.ShloMosaic.Lib.Tactic

/-!
# The kernel body as a function of its three input blocks

The kernel function reads seven row-planes of its first block (the seven addends of a mean), the
seven matching weight matrices of its second block and the bias row of its third, and writes once,
over the whole of its output block: the sum of the seven products plus the bias, times the constant
the program carries for one seventh.
It also reads the output block before writing it, and drops that value. So whatever the output block
held, it holds afterwards the one stored value, which depends on the three input blocks only; and the
input blocks are left as they were. This file states that as a weakest-precondition triple.
-/

-- deciding that a point lies in a rectangle of 5000 rows recurses once per row
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes -/

/-- Row-plane `s` of the first block: one addend of the mean, all 5000 rows and 128 lanes of it. -/
abbrev meanRect0 : Rect S7x5000x128 := Rect.unit (s := S7x5000x128) ![0, 0, 0] S1x5000x128.size inb_S7x5000x128_S1x5000x128_0_0_0
abbrev meanRect1 : Rect S7x5000x128 := Rect.unit (s := S7x5000x128) ![1, 0, 0] S1x5000x128.size inb_S7x5000x128_S1x5000x128_1_0_0
abbrev meanRect2 : Rect S7x5000x128 := Rect.unit (s := S7x5000x128) ![2, 0, 0] S1x5000x128.size inb_S7x5000x128_S1x5000x128_2_0_0
abbrev meanRect3 : Rect S7x5000x128 := Rect.unit (s := S7x5000x128) ![3, 0, 0] S1x5000x128.size inb_S7x5000x128_S1x5000x128_3_0_0
abbrev meanRect4 : Rect S7x5000x128 := Rect.unit (s := S7x5000x128) ![4, 0, 0] S1x5000x128.size inb_S7x5000x128_S1x5000x128_4_0_0
abbrev meanRect5 : Rect S7x5000x128 := Rect.unit (s := S7x5000x128) ![5, 0, 0] S1x5000x128.size inb_S7x5000x128_S1x5000x128_5_0_0
abbrev meanRect6 : Rect S7x5000x128 := Rect.unit (s := S7x5000x128) ![6, 0, 0] S1x5000x128.size inb_S7x5000x128_S1x5000x128_6_0_0

/-- Matrix `s` of the second block: the 128 × 128 weights that multiply addend `s`. -/
abbrev wRect0 : Rect S7x128x128 := Rect.unit (s := S7x128x128) ![0, 0, 0] S1x128x128.size inb_S7x128x128_S1x128x128_0_0_0
abbrev wRect1 : Rect S7x128x128 := Rect.unit (s := S7x128x128) ![1, 0, 0] S1x128x128.size inb_S7x128x128_S1x128x128_1_0_0
abbrev wRect2 : Rect S7x128x128 := Rect.unit (s := S7x128x128) ![2, 0, 0] S1x128x128.size inb_S7x128x128_S1x128x128_2_0_0
abbrev wRect3 : Rect S7x128x128 := Rect.unit (s := S7x128x128) ![3, 0, 0] S1x128x128.size inb_S7x128x128_S1x128x128_3_0_0
abbrev wRect4 : Rect S7x128x128 := Rect.unit (s := S7x128x128) ![4, 0, 0] S1x128x128.size inb_S7x128x128_S1x128x128_4_0_0
abbrev wRect5 : Rect S7x128x128 := Rect.unit (s := S7x128x128) ![5, 0, 0] S1x128x128.size inb_S7x128x128_S1x128x128_5_0_0
abbrev wRect6 : Rect S7x128x128 := Rect.unit (s := S7x128x128) ![6, 0, 0] S1x128x128.size inb_S7x128x128_S1x128x128_6_0_0

/-- The whole of the third block: the bias row. -/
abbrev biasRect : Rect S1x128 := Rect.unit (s := S1x128) ![0, 0] S1x128.size inb_S1x128_S1x128_0_0

/-- The whole of the output block. -/
abbrev outRect : Rect S5000x128 := Rect.unit (s := S5000x128) ![0, 0] S5000x128.size inb_S5000x128_S5000x128_0_0

/-! ## What the body stores, and what the output block then holds -/

/-- The value of the body's one store, as a function of the three input blocks: the first four
    products summed (`k0_pay2`), the fifth addend reshaped (`k0_pay3`), and the rest of the sum, the
    bias and the scaling (`k0_pay1`), each over the planes read through the rectangles above. -/
def stored (x0 : Vec F S7x5000x128 .bf16) (x1 : Vec F S7x128x128 .bf16) (x2 : Vec F S1x128 .f32) : Vec F S5000x128 .f32 :=
  k0_pay1
    (k0_pay2 (View.ld x0 meanRect0) (View.ld x1 wRect0) (View.ld x0 meanRect1) (View.ld x1 wRect1)
      (View.ld x0 meanRect2) (View.ld x1 wRect2) (View.ld x0 meanRect3) (View.ld x1 wRect3))
    (k0_pay3 (View.ld x0 meanRect4)) (View.ld x1 wRect4)
    (View.ld x0 meanRect5) (View.ld x1 wRect5)
    (View.ld x0 meanRect6) (View.ld x1 wRect6)
    (View.ld x2 biasRect)

/-- The output block after the body: the one write, over the whole block, read back pointwise. -/
def bodyOut (x0 : Vec F S7x5000x128 .bf16) (x1 : Vec F S7x128x128 .bf16) (x2 : Vec F S1x128 .f32) : Vec F S5000x128 .f32 :=
  View.canon [⟨outRect, stored x0 x1 x2⟩]

/-- The one write's rectangle is the whole block, so every point of the block lies in it. -/
theorem bodyOut_cover (p0 : Vec F S5000x128 .f32) (y : S5000x128.Idx) :
    ∃ pc ∈ ([⟨outRect, p0⟩] : List (View.Piece (Elt F) S5000x128 .f32)), y ∈ pc.1.set :=
  View.cover_of_tiled [⟨outRect, p0⟩] S5000x128.size (by rfl) y

/-! ## The triple -/

set_option maxHeartbeats 4000000 in
/-- Run on whole memrefs that hold `x0`, `x1`, `x2` and anything at all in the output's, the kernel
    function reaches its continuation with the three inputs' memrefs unchanged and the output's at
    `bodyOut x0 x1 x2`. The function is, definitionally, a sequence of sixteen loads and one store
    over the payload names; the loads of the inputs read `View.ld` of their contents, the load of the
    output is dropped, and the store's write over the whole block replaces whatever was there. -/
theorem body_triple (c : Dev nD) (E : Set ℕ) (i : grid0.Coords)
    (arg1 : Memref sig .tc .vmem S7x5000x128 .bf16) (harg1 : arg1.IsWhole)
    (arg2 : Memref sig .tc .vmem S7x128x128 .bf16) (harg2 : arg2.IsWhole)
    (arg3 : Memref sig .tc .vmem S1x128 .f32) (harg3 : arg3.IsWhole)
    (arg4 : Memref sig .tc .vmem S5000x128 .f32) (harg4 : arg4.IsWhole)
    (x0 : Vec F S7x5000x128 .bf16) (x1 : Vec F S7x128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (bodyOut x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (bodyOut_cover _)

end Cert.KernelIdeal.Body

end
-- ==== Proof.KernelIdealEntry.lean ====
/- The state in which program `KernelIdeal`'s single region is entered, and what that gives a certificate.

   @main is a straight line of 230 host operations followed by one region of 20 grid points. This module fixes
   the contents of the TensorCore buffers when the region starts (`atEntry`: the launch contents pushed through the
   whole line), shows that @main reduces to the region at those contents, that the four arguments are still as
   launched there (no operation of the line has an argument as its result), names the block of each window's array
   at a grid point, shows that an input window's staging buffer holds exactly that block whenever the body is
   called, and finally turns a run that ends in the library's frame post-condition into a run after which the four
   arguments are unchanged. Everything is stated for an arbitrary float interpretation. -/
import proofs.«161684_j41807211660046_2_alg».proof.Proof.Gen.KernelIdeal.Launch
import proofs.«161684_j41807211660046_2_alg».proof.Proof.Gen.KernelIdeal.Skeleton
import proofs.«161684_j41807211660046_2_alg».proof.Proof.Gen.KernelIdeal.Points
import Idealize.ShloMosaic.Lib.Pipeline.FrameBody
import Idealize.ShloMosaic.Lib.Ring
import Idealize.ShloMosaic.Lib.Tactic

-- the host line is a list of 230 entries; walking it entry by entry nests deeper than the default bound
set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The buffers at the region's entry -/

/-- What core `c`'s TensorCore buffer `b` holds when the region starts: the launch contents `m` after the 230 host
    operations have been applied in order, each replacing its result buffer and leaving every other one alone. -/
abbrev atEntry (c : Dev nD) (b : Ref sig .tc) : Buf (Elt F) ((c : Thread nD τ).loc b) :=
  StableHlo.after hostOps0 (fun b => m (c, b)) b

set_option maxHeartbeats 4000000 in
/-- None of the host operations allocates: each one's set of fresh buffers is empty, which holds by the definition of
    every builder, so the conjunction over the line is closed one entry at a time. -/
theorem hostOps0_fresh : (hostOps0 : List (HloOp τ sig (Elt F))).Forall fun op => op.fresh = ∅ := by
  simp only [List.Forall]; repeat' constructor

/-- @main up to the region. The line touches TensorCore references only and allocates nothing, and @main is the line
    followed by the region's call; so, owning the unscoped buffers at the launch contents, @main reduces to the
    region's call owning them at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-! ## The arguments are untouched by the host line

Every host operation writes exactly one buffer, its result, and no result is one of the four arguments. A buffer that
no operation of a line writes has after the line what it had before. The four statements differ only in the
reference: each unfolds the line, reads off every operation's written set as a singleton, and is left with 230
inequalities between distinct references, each decided. -/

set_option maxHeartbeats 4000000 in
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- The block of window `w`'s array that grid point `t` addresses, read from the array as it stands at the region's
    entry: for window 0 a [7, 5000, 128] slab of the concatenated operand, for windows 1 and 2 the whole array, for
    window 3 a [5000, 128] slab of the result. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! ## What an input window's staging buffer holds when the body runs

Take any proof data whose array for the window is the entry contents and whose body hands the window's buffer back
holding the point's block. The window is an input, is never idle and is not clipped; then at every point the buffer
the body receives holds what a fetch at that point would have put there — if the pipeline did fetch, trivially; if it
did not, the block index is the previous point's, and the previous body left that block in place. What a fetch
delivers is the block of the array, which is `blockAt`. Window 0 is fetched at every point; windows 1 and 2 only at
the first, their single block being the whole array. -/

theorem staged0_of {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t := by
  have hkeep : ∀ t, (cfg0.win 0).cut (cfg0.grid.coords t) (dat.after 0 t) = dat.blockOf 0 t := fun t => by
    rw [hafter]; unfold Dat.blockOf blockAt; rw [hA]; try rfl
  have hfetched : dat.fetched 0 t d = blockAt m c 0 t := by
    unfold Dat.fetched Dat.blockOf blockAt; rw [hA]; try rfl
  exact (dat.before_in_eq_fetched 0 rfl (fun _ => rfl) (fun _ _ _ => rfl) hkeep t d).trans hfetched

theorem staged1_of {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t := by
  have hkeep : ∀ t, (cfg0.win 1).cut (cfg0.grid.coords t) (dat.after 1 t) = dat.blockOf 1 t := fun t => by
    rw [hafter]; unfold Dat.blockOf blockAt; rw [hA]; try rfl
  have hfetched : dat.fetched 1 t d = blockAt m c 1 t := by
    unfold Dat.fetched Dat.blockOf blockAt; rw [hA]; try rfl
  exact (dat.before_in_eq_fetched 1 rfl (fun _ => rfl) (fun _ _ _ => rfl) hkeep t d).trans hfetched

theorem staged2_of {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t := by
  have hkeep : ∀ t, (cfg0.win 2).cut (cfg0.grid.coords t) (dat.after 2 t) = dat.blockOf 2 t := fun t => by
    rw [hafter]; unfold Dat.blockOf blockAt; rw [hA]; try rfl
  have hfetched : dat.fetched 2 t d = blockAt m c 2 t := by
    unfold Dat.fetched Dat.blockOf blockAt; rw [hA]; try rfl
  exact (dat.before_in_eq_fetched 2 rfl (fun _ => rfl) (fun _ _ _ => rfl) hkeep t d).trans hfetched

/-! ## From the frame post-condition to unchanged arguments -/

/-- The four windows stage intermediate buffers of the host line (the seven stacked per-type means, the weights rounded
    to bf16, the row of summed biases, and the result), never an argument. So each argument is an unscoped buffer that is no window's array: the
    region passes it by, and the frame post-condition says it ends holding what it held at the region's entry — which
    is the launch contents, the host line not having written it either. A run ending in the frame post-condition
    therefore ends with all four arguments as launched. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (atEntry_arg0 m c),
     ((h c).2 main_arg1 (Pipeline.mem_restRefs_of main_arg1 (by decide) (by decide))).trans (atEntry_arg1 m c),
     ((h c).2 main_arg2 (Pipeline.mem_restRefs_of main_arg2 (by decide) (by decide))).trans (atEntry_arg2 m c),
     ((h c).2 main_arg3 (Pipeline.mem_restRefs_of main_arg3 (by decide) (by decide))).trans (atEntry_arg3 m c)⟩) h

end Cert.KernelIdeal.Entry

end
-- ==== Proof.KernelIdealRun.lean ====
import proofs.«161684_j41807211660046_2_alg».proof.Proof.KernelIdealBody
import proofs.«161684_j41807211660046_2_alg».proof.Proof.KernelIdealEntry

/-!
# The run of the program and its frame

The program is a stretch of host operations and then one pipelined region over a grid of 20 points.
At each point the pipeline hands the kernel function the current staging buffer of each of its four
windows. The three input windows' buffers hold the windows' blocks of the arrays as the region finds
them; the kernel function leaves them so, and leaves in the output window's buffer a value that
depends on those three blocks only (`Body.bodyOut`). That is the whole of the proof data the
library's frame run asks for; it gives back that the run terminates, and where every array ends.
-/

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`. The arrays are as the region finds them. After the body at
    point `t` each input window's buffer holds that window's block at `t`, and the output window's
    holds `Body.bodyOut` of the three input blocks at `t`. Nothing is carried from point to point
    beyond the library's own invariant, every share is full, and nothing is owed. -/
def dats (_ : Fin 1) (c : Dev nD) : Dat τ (Elt F) Unit ℕ (UR sig nD τ) ℕ cfg0 c where
  A w := Entry.atEntry m c (Pipeline.arrRef spec0 w)
  after w t := match w with
    | ⟨0, _⟩ => Entry.blockAt m c 0 t
    | ⟨1, _⟩ => Entry.blockAt m c 1 t
    | ⟨2, _⟩ => Entry.blockAt m c 2 t
    | ⟨3, _⟩ => Body.bodyOut (Entry.blockAt m c 0 t) (Entry.blockAt m c 1 t) (Entry.blockAt m c 2 t)
  Φ _ := Pipeline.ΦA spec0 c
  q _ := fullShare
  owed _ := 0

/-- The proof data's arrays, projected: the contents at the region's entry are never unfolded. -/
theorem A_eq (c : Dev nD) (w : Fin cfg0.W) : (dats m 0 c).A w = Entry.atEntry m c (Pipeline.arrRef spec0 w) := by
  dsimp only [dats]

/-- What the body leaves in each window's buffer, window by window. -/
theorem after0 (c : Dev nD) (t : Fin cfg0.N) : (dats m 0 c).after 0 t = Entry.blockAt m c 0 t := by dsimp only [dats]
theorem after1 (c : Dev nD) (t : Fin cfg0.N) : (dats m 0 c).after 1 t = Entry.blockAt m c 1 t := by dsimp only [dats]
theorem after2 (c : Dev nD) (t : Fin cfg0.N) : (dats m 0 c).after 2 t = Entry.blockAt m c 2 t := by dsimp only [dats]
theorem after3 (c : Dev nD) (t : Fin cfg0.N) :
    (dats m 0 c).after 3 t = Body.bodyOut (Entry.blockAt m c 0 t) (Entry.blockAt m c 1 t) (Entry.blockAt m c 2 t) := by
  dsimp only [dats]

/-- What the body finds in each input window's buffer: the window's block at the point, whether the
    pipeline fetched it at this point or at an earlier one (the body never changes it in between). -/
theorem before0 (c : Dev nD) (t : Fin cfg0.N) (d) : (dats m 0 c).before 0 t d = Entry.blockAt m c 0 t :=
  Entry.staged0_of m (dats m 0 c) (A_eq m c 0) (after0 m c) t d
theorem before1 (c : Dev nD) (t : Fin cfg0.N) (d) : (dats m 0 c).before 1 t d = Entry.blockAt m c 1 t :=
  Entry.staged1_of m (dats m 0 c) (A_eq m c 1) (after1 m c) t d
theorem before2 (c : Dev nD) (t : Fin cfg0.N) (d) : (dats m 0 c).before 2 t d = Entry.blockAt m c 2 t :=
  Entry.staged2_of m (dats m 0 c) (A_eq m c 2) (after2 m c) t d

/-! ## The body at a point -/

/-- What the pipeline holds when it calls the body at point `t`: its invariant, what the core owes,
    and each window's current staging buffer, whole, at what the window holds before the body. -/
def atCall (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body must give back: the same, with each buffer at what the proof data says it leaves. -/
def atReturn (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. The three inputs' buffers hold their blocks (`before0`…`before2`) and the
    output's holds something, which is all `Body.body_triple` asks; what it returns is what the proof
    data promises. The invariant and the core's debt do not change from a point to the next, and the
    body does not touch them. -/
theorem body_at_point (c : Dev nD) (t : Fin cfg0.N) :
    atCall m c t ⊢ wp frame (wpE (defs₀ (F := F)) Variants.none c none) Set.univ (bodyAt0 t) (fun _ => atReturn m c t) := by
  unfold atCall atReturn bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (Body.body_triple c Set.univ (grid0.coords t) _ _ _ _ _ _ _ _ (Entry.blockAt m c 0 t) (Entry.blockAt m c 1 t) (Entry.blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation: its conjunction over the four windows, written out, is
    `body_at_point`. -/
theorem body_obligation (c : Dev nD) : BodyObligation (dats (F := F) m 0 c) (defs₀ (F := F)) Variants.none () Set.univ := fun t => by
  rw [bigSep_W0, bigSep_W0]
  exact body_at_point m c t

/-! ## The run and the frame -/

-- the frame run's implicit arguments are found by unifying its conclusion with the statement, which
-- unfolds plain definitions inside the type of a metavariable
set_option backward.isDefEq.respectTransparency.types false in
/-- From any memory with zero counters, every weakly fair execution of the program on the
    TensorCores terminates, and ends with every array of the pipeline at what the library computes
    from the proof data and every other unscoped buffer as the region found it. -/
theorem run_main : θ_run defs (onTc (τ := τ) (main (F := F))) (s₀ m ρ) (Pipeline.FramePost cfgs (dats m) 0 (Entry.atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := Entry.atEntry m) (hmain := Entry.main_to_region m Variants.none) (hA := A_eq m) (hΦ := fun _ _ => rfl)

/-- The frame: the program runs to completion and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Entry.frame_of_run m ρ (dats m) (A_eq m) (run_main m ρ)

end Cert.KernelIdeal.Run

end
-- ==== Proof.MeanConvSpec.lean ====
/-
  The value of a mean-aggregating convolution over seven edge types, at one entry of the result.

  For each edge type s the layer has an aggregated array M s (the per-node mean of the gathered rows), a weight
  matrix W s and a bias row b s. The result at node R, lane k is the average over the seven types of
  (Σ j, M s (R, j) · W s (j, k)) + b s k.

  Two arrangements of that average are compared. The first accumulates the seven contractions from zero, adds the
  sum of the seven bias entries once, and multiplies by the rational 1/7. The second accumulates, from zero, each
  contraction together with its own bias entry, and divides by 7. On the extended reals addition is commutative and
  associative with no exception, and dividing by the real 7 is multiplying by the real 1/7 for every extended real,
  so the two agree at every entry with no finiteness assumption.
-/
import Idealize.ShloMosaic.PureOps.Ideal
import Idealize.ShloMosaic.PureOps.Ideal.Laws
import Idealize.ShloMosaic.Lib.ValueIdx

noncomputable section

namespace Cert.MeanConv

open Idealize.ShloMosaic Idealize.ShloMosaic.ValueIdx

/-- The aggregated arrays of the seven types stacked along a leading axis, a stack of weight matrices and one bias
    row: the seven contractions accumulated from zero in order, the bias row added, the sum scaled by 1/7. -/
def stackedAt (Ms : (⟨3, ![7, 100000, 128]⟩ : Shape).Idx → EReal) (W : (⟨3, ![7, 128, 128]⟩ : Shape).Idx → EReal)
    (bs : (⟨2, ![1, 128]⟩ : Shape).Idx → EReal) (R : Fin 100000) (k : Fin 128) : EReal :=
  ((((((((0 + (∑ j : Fin 128, Ms (ix3 0 R j) * W (ix3 0 j k))) + (∑ j : Fin 128, Ms (ix3 1 R j) * W (ix3 1 j k))) + (∑ j : Fin 128, Ms (ix3 2 R j) * W (ix3 2 j k))) + (∑ j : Fin 128, Ms (ix3 3 R j) * W (ix3 3 j k))) + (∑ j : Fin 128, Ms (ix3 4 R j) * W (ix3 4 j k))) + (∑ j : Fin 128, Ms (ix3 5 R j) * W (ix3 5 j k))) + (∑ j : Fin 128, Ms (ix3 6 R j) * W (ix3 6 j k)))
      + bs (ix2 0 k)) * ((1 / 7 : ℝ) : EReal)

/-- The same arrangement with the seven aggregated arrays given one by one and the bias row spelt as the sum, from
    zero, of the seven bias entries of lane k. -/
def sumThenScaleAt (M : Fin 7 → (⟨2, ![100000, 128]⟩ : Shape).Idx → EReal) (W : (⟨3, ![7, 128, 128]⟩ : Shape).Idx → EReal)
    (b : (⟨2, ![7, 128]⟩ : Shape).Idx → EReal) (R : Fin 100000) (k : Fin 128) : EReal :=
  ((((((((0 + (∑ j : Fin 128, M 0 (ix2 R j) * W (ix3 0 j k))) + (∑ j : Fin 128, M 1 (ix2 R j) * W (ix3 1 j k))) + (∑ j : Fin 128, M 2 (ix2 R j) * W (ix3 2 j k))) + (∑ j : Fin 128, M 3 (ix2 R j) * W (ix3 3 j k))) + (∑ j : Fin 128, M 4 (ix2 R j) * W (ix3 4 j k))) + (∑ j : Fin 128, M 5 (ix2 R j) * W (ix3 5 j k))) + (∑ j : Fin 128, M 6 (ix2 R j) * W (ix3 6 j k)))
      + (0 + ∑ s : Fin 7, b (ix2 s k))) * ((1 / 7 : ℝ) : EReal)

/-- The other arrangement: each contraction with its own bias entry, accumulated from zero, the total divided by 7. -/
def biasEachThenDivideAt (M : Fin 7 → (⟨2, ![100000, 128]⟩ : Shape).Idx → EReal) (W : (⟨3, ![7, 128, 128]⟩ : Shape).Idx → EReal)
    (b : (⟨2, ![7, 128]⟩ : Shape).Idx → EReal) (R : Fin 100000) (k : Fin 128) : EReal :=
  Ideal.div (((((((0 + ((∑ j : Fin 128, M 0 (ix2 R j) * W (ix3 0 j k)) + b (ix2 0 k))) + ((∑ j : Fin 128, M 1 (ix2 R j) * W (ix3 1 j k)) + b (ix2 1 k))) + ((∑ j : Fin 128, M 2 (ix2 R j) * W (ix3 2 j k)) + b (ix2 2 k))) + ((∑ j : Fin 128, M 3 (ix2 R j) * W (ix3 3 j k)) + b (ix2 3 k)))
      + ((∑ j : Fin 128, M 4 (ix2 R j) * W (ix3 4 j k)) + b (ix2 4 k))) + ((∑ j : Fin 128, M 5 (ix2 R j) * W (ix3 5 j k)) + b (ix2 5 k))) + ((∑ j : Fin 128, M 6 (ix2 R j) * W (ix3 6 j k)) + b (ix2 6 k))) ((7 : ℝ) : EReal)

/-- Seven terms and seven offsets: summing the terms then the offsets is summing the pairs. Only commutativity and
    associativity of addition are used, which hold on all of the extended reals. -/
theorem regroup (d b : Fin 7 → EReal) :
    (((((((0 + d 0) + d 1) + d 2) + d 3) + d 4) + d 5) + d 6) + (0 + ∑ s : Fin 7, b s)
      = ((((((0 + (d 0 + b 0)) + (d 1 + b 1)) + (d 2 + b 2)) + (d 3 + b 3)) + (d 4 + b 4)) + (d 5 + b 5)) + (d 6 + b 6) := by
  rw [Fin.sum_univ_seven]
  simp only [zero_add]
  abel

/-- The two arrangements agree at every entry. -/
theorem sumThenScaleAt_eq (M : Fin 7 → (⟨2, ![100000, 128]⟩ : Shape).Idx → EReal) (W : (⟨3, ![7, 128, 128]⟩ : Shape).Idx → EReal)
    (b : (⟨2, ![7, 128]⟩ : Shape).Idx → EReal) (R : Fin 100000) (k : Fin 128) :
    sumThenScaleAt M W b R k = biasEachThenDivideAt M W b R k := by
  unfold sumThenScaleAt biasEachThenDivideAt
  rw [Ideal.div_coe (by norm_num : (7 : ℝ) ≠ 0)]
  exact congrArg (· * ((1 / 7 : ℝ) : EReal))
    (regroup (fun s => ∑ j : Fin 128, M s (ix2 R j) * W (ix3 s j k)) (fun s => b (ix2 s k)))

/-- The word 0x40E00000 read as a 32-bit float is the real 7. -/
theorem seven_word : Ideal.ofBits .f32 0x40E00000#32 = ((7 : ℝ) : EReal) := by
  simp [Ideal.ofBits, Ideal.ieee, -EReal.coe_mul]; norm_num

end Cert.MeanConv

end
-- ==== Proof.MeanConvJoin.lean ====
/-
  From the stacked arrays to the seven arrays.

  The first arrangement of the average is stated twice in the specification: over one stack of the seven aggregated
  arrays with a ready-made bias row, and over the seven arrays one by one with the bias row spelt as a sum. When slab s of
  the stack is the s-th array along row R, the two weight stacks agree along column k, and the row's entry k is zero
  plus the seven bias entries of lane k, the two statements are the same number: the sums are equal term by term.
-/
import proofs.«161684_j41807211660046_2_alg».proof.Proof.MeanConvSpec

noncomputable section

namespace Cert.MeanConv

open Idealize.ShloMosaic Idealize.ShloMosaic.ValueIdx

/-- The stacked statement at (R, k) is the one-by-one statement, given the three readings along row R and column k. -/
theorem stackedAt_eq_of (Ms : (⟨3, ![7, 100000, 128]⟩ : Shape).Idx → EReal) (W' W : (⟨3, ![7, 128, 128]⟩ : Shape).Idx → EReal)
    (bs : (⟨2, ![1, 128]⟩ : Shape).Idx → EReal) (M : Fin 7 → (⟨2, ![100000, 128]⟩ : Shape).Idx → EReal)
    (b : (⟨2, ![7, 128]⟩ : Shape).Idx → EReal) (R : Fin 100000) (k : Fin 128)
    (hM : ∀ (s : Fin 7) (j : Fin 128), Ms (ix3 s R j) = M s (ix2 R j))
    (hW : ∀ (s : Fin 7) (j : Fin 128), W' (ix3 s j k) = W (ix3 s j k))
    (hb : bs (ix2 0 k) = 0 + ∑ s : Fin 7, b (ix2 s k)) :
    stackedAt Ms W' bs R k = sumThenScaleAt M W b R k := by
  unfold stackedAt sumThenScaleAt
  simp only [hM, hW, hb]

end Cert.MeanConv

end
-- ==== Proof.KernelIdealResult.lean ====
/- Where the program's result array ends, at the ideal float interpretation.

   The run of the program ends in the library's frame post-condition: on every core, each array a window of the
   pipeline stages holds what the library computes from the proof data, and every other unscoped buffer holds what it
   held when the region was entered. The result array is the array of the fourth window, the one output; so it ends at
   the proof data's account of that window after all 20 grid points — its contents at the region's entry overwritten,
   block by block, by what the body left at each point. The four arguments are staged by no window and written by no
   host operation, so they end as launched. This module reads both facts off the run, at floats that are extended
   reals, and states them from a memory whose semaphore counters are all zero. -/
import proofs.«161684_j41807211660046_2_alg».proof.Proof.KernelIdealRun
import Idealize.ShloMosaic.Lib.ValueIdx

noncomputable section

namespace Cert.KernelIdeal.Result

open Cert.KernelIdeal Cert.KernelIdeal.Gen
open Idealize.ShloMosaic Idealize.ShloMosaic.TcCoe
open Idealize.SL Idealize.SL.Sem
open Idealize.ShloMosaic.Pipeline (Dat Cfg)

/-- From any memory `m` with zero counters and any generator states `ρ`, every weakly fair execution of the program on
    the TensorCores terminates, and on every core the result array holds the fourth window's array as the proof data
    gives it after the last grid point, while each of the four argument arrays holds what it held at launch.

    The first conjunct is the frame post-condition's clause about the windows' arrays, read at the output window: its
    array is the whole result buffer, so the location named there is the result's. The other four are the clause
    about the buffers the region passes by, followed by the fact that the host line writes no argument. The initial
    state with zero counters is the one the run is stated from. -/
theorem run_result (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v187) = (Run.dats (F := Ideal) m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 3,
     ((h c).2 main_arg0 (Pipeline.mem_restRefs_of main_arg0 (by decide) (by decide))).trans (Entry.atEntry_arg0 m c),
     ((h c).2 main_arg1 (Pipeline.mem_restRefs_of main_arg1 (by decide) (by decide))).trans (Entry.atEntry_arg1 m c),
     ((h c).2 main_arg2 (Pipeline.mem_restRefs_of main_arg2 (by decide) (by decide))).trans (Entry.atEntry_arg2 m c),
     ((h c).2 main_arg3 (Pipeline.mem_restRefs_of main_arg3 (by decide) (by decide))).trans (Entry.atEntry_arg3 m c)⟩)
    (Run.run_main m ρ)

end Cert.KernelIdeal.Result

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.KernelIdealFinal.lean ====
import proofs.«161684_j41807211660046_2_alg».proof.Proof.KernelIdealRun
import proofs.«161684_j41807211660046_2_alg».proof.Proof.MeanConvSpec
import proofs.«161684_j41807211660046_2_alg».proof.Proof.LibDotRead
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-!
# From the kernel's blocks to its result array, on the extended reals

At each of the 20 grid points the kernel body stores, over its whole [5000, 128] output block, one value computed
from a [7, 5000, 128] block of stacked row-planes, a [7, 128, 128] stack of matrices and a [1, 128] row. Read at an
entry (r, k), that value is: the seven products Σ j, plane s (r, j) · matrix s (j, k), s = 0 … 6, accumulated from zero
in that order, plus the row's entry k, times the real 1/7.

Point t's output block is rows 5000 t … 5000 t + 4999 of the result, and its first input block is the same rows of
every plane of the stacked operand; the other two input blocks are the whole of their arrays at every point. So what
point t writes back is the restriction to its rows of one function of the three arrays as the region finds them, the
twenty row-blocks tile the result, and the result ends holding that function at every entry.
-/

-- a point inside a rectangle of 5000 rows is decided by a recursion of that depth
set_option maxRecDepth 16384

noncomputable section

namespace Cert.KernelIdeal.Final

open Cert.KernelIdeal Cert.KernelIdeal.Gen
open Idealize.ShloMosaic Idealize.ShloMosaic.TcCoe Idealize.SL.Sem Idealize.ShloMosaic.ValueIdx
open Idealize.ShloMosaic.Pipeline (Dat)

/-! ## The pieces of the stored value, each read at an entry -/

/-- The block product's dimension record is the plain one: rows × contraction times contraction × columns, the left
    operand read at (row, contraction), the right one at (contraction, column). -/
theorem plainDot : Cert.DotRead.Plain dot_S5000x128_S128x128_S5000x128_1_0_0_1_n_n where
  rank := rfl
  size := rfl
  lhs0 := fun i q => rfl
  lhs1 := fun i q => dot_S5000x128_S128x128_S5000x128_1_0_0_1_n_n.lhsIdx_val_of_single (cl := 1) rfl i q
  rhs0 := fun i q => dot_S5000x128_S128x128_S5000x128_1_0_0_1_n_n.rhsIdx_val_of_single (cr := 0) rfl i q
  rhs1 := fun i q => rfl

section Planes
variable {Val : EltTy → Type} {e : EltTy}

/-- Plane s of a rank-three array, read through the rectangle of one plane at offset (s, 0, 0): its entry (0, r, j) is
    the array's entry (s, r, j). -/
theorem ld_plane {n0 n1 n2 : ℕ} (X : (⟨3, ![n0, n1, n2]⟩ : Shape).Idx → Val e) (s : Fin n0)
    (inb : ∀ a, (![s.val, 0, 0] : Fin 3 → ℕ) a + (![1, n1, n2] : Fin 3 → ℕ) a ≤ (⟨3, ![n0, n1, n2]⟩ : Shape).size a)
    (r : Fin n1) (j : Fin n2) :
    View.ld X (Rect.unit (s := ⟨3, ![n0, n1, n2]⟩) ![s.val, 0, 0] ![1, n1, n2] inb) (ix3 (0 : Fin 1) r j) = X (ix3 s r j) := by
  show X _ = X _
  refine congrArg X (funext fun a => Fin.ext ?_)
  match a with
  | ⟨0, _⟩ => show s.val + 1 * 0 = s.val; omega
  | ⟨1, _⟩ => show 0 + 1 * r.val = r.val; omega
  | ⟨2, _⟩ => show 0 + 1 * j.val = j.val; omega

end Planes

/-- Both offsets of the whole-block rectangles are zero. -/
theorem zero_offsets : (![0, 0] : Fin 2 → Nat) = fun _ => 0 := funext fun a => by fin_cases a <;> rfl

/-- Plane s of the first block, with its unit axis dropped, at (r, j). -/
theorem plane_at (x0 : Vec Ideal S7x5000x128 .bf16) (s : Fin 7)
    (inb : ∀ a, (![s.val, 0, 0] : Fin 3 → ℕ) a + S1x5000x128.size a ≤ S7x5000x128.size a) (r : Fin 5000) (j : Fin 128) :
    shapeCast S5000x128 (View.ld x0 (Rect.unit (s := S7x5000x128) ![s.val, 0, 0] S1x5000x128.size inb)) shapeCasts_S1x5000x128_S5000x128 (ix2 r j)
      = x0 (ix3 s r j) :=
  (shapeCast_1ab_ab_apply _ _ r j).trans (ld_plane x0 s inb r j)

/-- Matrix s of the second block, with its unit axis dropped, at (j, k). -/
theorem matrix_at (x1 : Vec Ideal S7x128x128 .bf16) (s : Fin 7)
    (inb : ∀ a, (![s.val, 0, 0] : Fin 3 → ℕ) a + S1x128x128.size a ≤ S7x128x128.size a) (j : Fin 128) (k : Fin 128) :
    shapeCast S128x128 (View.ld x1 (Rect.unit (s := S7x128x128) ![s.val, 0, 0] S1x128x128.size inb)) shapeCasts_S1x128x128_S128x128 (ix2 j k)
      = x1 (ix3 s j k) :=
  (shapeCast_1ab_ab_apply _ _ j k).trans (ld_plane x1 s inb j k)

/-- One of the seven products, into a zero accumulator, at (r, k): Σ j, plane s (r, j) · matrix s (j, k). -/
theorem product_at (x0 : Vec Ideal S7x5000x128 .bf16) (x1 : Vec Ideal S7x128x128 .bf16) (s : ℕ) (hs : s < 7)
    (inb0 : ∀ a, (![s, 0, 0] : Fin 3 → ℕ) a + S1x5000x128.size a ≤ S7x5000x128.size a)
    (inb1 : ∀ a, (![s, 0, 0] : Fin 3 → ℕ) a + S1x128x128.size a ≤ S7x128x128.size a) (r : Fin 5000) (k : Fin 128) :
    matmul (φ₁ := .bf16) (φ₂ := .bf16) dot_S5000x128_S128x128_S5000x128_1_0_0_1_n_n none
        (shapeCast S5000x128 (View.ld x0 (Rect.unit (s := S7x5000x128) ![s, 0, 0] S1x5000x128.size inb0)) shapeCasts_S1x5000x128_S5000x128)
        (shapeCast S128x128 (View.ld x1 (Rect.unit (s := S7x128x128) ![s, 0, 0] S1x128x128.size inb1)) shapeCasts_S1x128x128_S128x128)
        (constant (F := Ideal) S5000x128 .f32 0x00000000#32) (ix2 r k)
      = ∑ j : Fin 128, (x0 (ix3 ⟨s, hs⟩ r j) : EReal) * (x1 (ix3 ⟨s, hs⟩ j k) : EReal) := by
  refine (Cert.DotRead.matmul_zero_apply _ plainDot none _ _ r k).trans (Finset.sum_congr rfl fun j _ => ?_)
  exact congrArg₂ (· * ·) (plane_at x0 ⟨s, hs⟩ inb0 r j) (matrix_at x1 ⟨s, hs⟩ inb1 j k)

/-- The third block's one row, spread over the 5000 rows, at (r, k): the row's entry k. -/
theorem bias_at (x2 : Vec Ideal S1x128 .f32) (r : Fin 5000) (k : Fin 128) :
    broadcastTo S5000x128 (shapeCast S1x128 (View.ld x2 Body.biasRect) shapeCasts_S1x128_S1x128) broadcasts_S1x128_S5000x128 (ix2 r k)
      = x2 (ix2 0 k) :=
  (broadcastTo_1b_ab_apply _ _ r k).trans ((congrFun (shapeCast_self _ _) _).trans (congrFun (View.ld_unit_zero zero_offsets _ x2) _))

/-- The constant the program names for one seventh is the real 1/7 on the extended reals. -/
theorem one_seventh : Named.named (F := Ideal) κ "inv_7" (φ := .f32) 0x3E124925#32 = ((1 / 7 : ℝ) : EReal) :=
  IdealRules.named_const.ideal_named_scalar _ _ _ _ rfl

/-! ## The stored value at an entry -/

/-- What the body stores, at entry (r, k) of its output block: the seven products accumulated from zero in order, the
    row's entry added, the sum scaled by 1/7. Addition and multiplication act entry by entry; each product is read by
    `product_at`, the spread row by `bias_at`. -/
theorem stored_at (x0 : Vec Ideal S7x5000x128 .bf16) (x1 : Vec Ideal S7x128x128 .bf16) (x2 : Vec Ideal S1x128 .f32) (r : Fin 5000) (k : Fin 128) :
    Body.stored x0 x1 x2 (ix2 r k)
      = ((((((((0 + ∑ j : Fin 128, (x0 (ix3 0 r j) : EReal) * (x1 (ix3 0 j k) : EReal)) + ∑ j : Fin 128, (x0 (ix3 1 r j) : EReal) * (x1 (ix3 1 j k) : EReal))
          + ∑ j : Fin 128, (x0 (ix3 2 r j) : EReal) * (x1 (ix3 2 j k) : EReal)) + ∑ j : Fin 128, (x0 (ix3 3 r j) : EReal) * (x1 (ix3 3 j k) : EReal))
          + ∑ j : Fin 128, (x0 (ix3 4 r j) : EReal) * (x1 (ix3 4 j k) : EReal)) + ∑ j : Fin 128, (x0 (ix3 5 r j) : EReal) * (x1 (ix3 5 j k) : EReal))
          + ∑ j : Fin 128, (x0 (ix3 6 r j) : EReal) * (x1 (ix3 6 j k) : EReal)) + (x2 (ix2 0 k) : EReal)) * ((1 / 7 : ℝ) : EReal) := by
  unfold Body.stored k0_pay1 k0_pay2 k0_pay3
  simp only [mulf_apply, addf_apply, broadcast_apply]
  exact congrArg₂ (· * ·) (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32
      (product_at x0 x1 0 (by omega) inb_S7x5000x128_S1x5000x128_0_0_0 inb_S7x128x128_S1x128x128_0_0_0 r k))
      (product_at x0 x1 1 (by omega) inb_S7x5000x128_S1x5000x128_1_0_0 inb_S7x128x128_S1x128x128_1_0_0 r k))
      (product_at x0 x1 2 (by omega) inb_S7x5000x128_S1x5000x128_2_0_0 inb_S7x128x128_S1x128x128_2_0_0 r k))
      (product_at x0 x1 3 (by omega) inb_S7x5000x128_S1x5000x128_3_0_0 inb_S7x128x128_S1x128x128_3_0_0 r k))
      (product_at x0 x1 4 (by omega) inb_S7x5000x128_S1x5000x128_4_0_0 inb_S7x128x128_S1x128x128_4_0_0 r k))
      (product_at x0 x1 5 (by omega) inb_S7x5000x128_S1x5000x128_5_0_0 inb_S7x128x128_S1x128x128_5_0_0 r k))
      (product_at x0 x1 6 (by omega) inb_S7x5000x128_S1x5000x128_6_0_0 inb_S7x128x128_S1x128x128_6_0_0 r k))
      (bias_at x2 r k)) one_seventh

/-! ## From the blocks to the array -/

variable (m : (ℓ : Loc nD τ sig) → Buf (Elt Ideal) ℓ)

/-- The result array as one function of the three arrays the region finds: at (R, k) the specification's value. -/
abbrev wholeResult (c : Dev nD) : S100000x128.Idx → EReal := fun i =>
  Cert.MeanConv.stackedAt (Entry.atEntry m c main_v183 : S7x100000x128.Idx → EReal) (Entry.atEntry m c main_v184 : S7x128x128.Idx → EReal)
    (Entry.atEntry m c main_v186 : S1x128.Idx → EReal) (i 0) (i 1)

/-- The printed index maps over the 20 points: point t addresses row-block t of the stacked operand (every plane, every
    lane) and of the result, and block zero — the whole — of the matrices and of the row. -/
theorem block_indices : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is the restriction of that function to point t's row-block. The body's one store covers
    its whole block, so the block holds the stored value; at entry (p, q) that is `stored_at` of the three input
    blocks, whose entries are those of the arrays at row 5000 t + p (first block) or at the same place (the other two),
    and the block's entry (p, q) is the result's entry (5000 t + p, q). -/
theorem flushed_eq (c : Dev nD) (t : Fin cfg0.N) :
    (Run.dats (F := Ideal) m 0 c).flushed 3 t = ((cfg0.win 3).blk t).view.read (Elt Ideal) (wholeResult m c) := by
  show (cfg0.win 3).cut (grid0.coords t) ((Run.dats m 0 c).after 3 t) = _
  rw [Run.after3]
  unfold Body.bodyOut
  rw [View.canon_unit_zero zero_offsets]
  obtain ⟨e00, e01, e02, e10, e11, e12, e20, e21, e30, e31⟩ := block_indices t
  funext y
  obtain ⟨p, q, rfl⟩ : ∃ (p : Fin 5000) (q : Fin 128), y = ix2 p q := ⟨y 0, y 1, eq_ix2 y⟩
  have hN : t.val < 20 := lt_of_lt_of_eq t.isLt N_0
  have hemb : ((cfg0.win 3).blk t).view.emb (ix2 p q) = (ix2 (⟨5000 * t.val + p.val, by omega⟩ : Fin 100000) q : S100000x128.Idx) := by
    funext a; apply Fin.ext
    match a with
    | ⟨0, _⟩ => show win0_3.index t (0 : Fin 2) * 5000 + 1 * p.val = 5000 * t.val + p.val; rw [e30]; omega
    | ⟨1, _⟩ => show win0_3.index t (1 : Fin 2) * 128 + 1 * q.val = q.val; rw [e31]; omega
  have h0 : ∀ (s : Fin 7) (j : Fin 128), ((Entry.blockAt m c 0 t : Vec Ideal S7x5000x128 .bf16) (ix3 s p j) : EReal)
      = (Entry.atEntry m c main_v183 : S7x100000x128.Idx → EReal) (ix3 s (⟨5000 * t.val + p.val, by omega⟩ : Fin 100000) j) := by
    intro s j
    show (Entry.atEntry m c main_v183 : S7x100000x128.Idx → EReal) (((cfg0.win 0).blk t).view.emb (ix3 s p j)) = _
    refine congrArg _ (funext fun a => Fin.ext ?_)
    match a with
    | ⟨0, _⟩ => show win0_0.index t (0 : Fin 3) * 7 + 1 * s.val = s.val; rw [e00]; omega
    | ⟨1, _⟩ => show win0_0.index t (1 : Fin 3) * 5000 + 1 * p.val = 5000 * t.val + p.val; rw [e01]; omega
    | ⟨2, _⟩ => show win0_0.index t (2 : Fin 3) * 128 + 1 * j.val = j.val; rw [e02]; omega
  have h1 : ∀ (s : Fin 7) (j : Fin 128), ((Entry.blockAt m c 1 t : Vec Ideal S7x128x128 .bf16) (ix3 s j q) : EReal)
      = (Entry.atEntry m c main_v184 : S7x128x128.Idx → EReal) (ix3 s j q) := by
    intro s j
    show (Entry.atEntry m c main_v184 : S7x128x128.Idx → EReal) (((cfg0.win 1).blk t).view.emb (ix3 s j q)) = _
    refine congrArg _ (funext fun a => Fin.ext ?_)
    match a with
    | ⟨0, _⟩ => show win0_1.index t (0 : Fin 3) * 7 + 1 * s.val = s.val; rw [e10]; omega
    | ⟨1, _⟩ => show win0_1.index t (1 : Fin 3) * 128 + 1 * j.val = j.val; rw [e11]; omega
    | ⟨2, _⟩ => show win0_1.index t (2 : Fin 3) * 128 + 1 * q.val = q.val; rw [e12]; omega
  have h2 : ((Entry.blockAt m c 2 t : Vec Ideal S1x128 .f32) (ix2 0 q) : EReal)
      = (Entry.atEntry m c main_v186 : S1x128.Idx → EReal) (ix2 0 q) := by
    show (Entry.atEntry m c main_v186 : S1x128.Idx → EReal) (((cfg0.win 2).blk t).view.emb (ix2 0 q)) = _
    refine congrArg _ (funext fun a => Fin.ext ?_)
    match a with
    | ⟨0, _⟩ => show win0_2.index t (0 : Fin 2) * 1 + 1 * 0 = 0; rw [e20]
    | ⟨1, _⟩ => show win0_2.index t (1 : Fin 2) * 128 + 1 * q.val = q.val; rw [e21]; omega
  refine (stored_at _ _ _ p q).trans ?_
  show _ = wholeResult m c (((cfg0.win 3).blk t).view.emb (ix2 p q))
  rw [hemb]
  show _ = Cert.MeanConv.stackedAt _ _ _ (⟨5000 * t.val + p.val, by omega⟩ : Fin 100000) q
  unfold Cert.MeanConv.stackedAt
  simp only [h0, h1, h2]

/-- Every row of the result lies in the row-block of the point R / 5000, and every point writes its block back. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < cfg0.N := lt_of_lt_of_eq (by omega : (i 0).val / 5000 < 20) N_0.symm
  refine ⟨⟨(i 0).val / 5000, hlt⟩, flush0_3 _, ?_⟩
  obtain ⟨-, -, -, -, -, -, -, -, e30, e31⟩ := block_indices ⟨(i 0).val / 5000, hlt⟩
  show i ∈ ((View.whole main_v187).slice (win0_3.rect ⟨(i 0).val / 5000, hlt⟩)).set
  rw [View.set_slice_whole, Rect.mem_set_unit]
  intro a
  match a with
  | ⟨0, _⟩ =>
    show win0_3.index _ (0 : Fin 2) * 5000 ≤ (i 0).val ∧ (i 0).val < win0_3.index _ (0 : Fin 2) * 5000 + 5000
    rw [e30]
    show (i 0).val / 5000 * 5000 ≤ (i 0).val ∧ (i 0).val < (i 0).val / 5000 * 5000 + 5000
    omega
  | ⟨1, _⟩ =>
    show win0_3.index _ (1 : Fin 2) * 128 ≤ (i 1).val ∧ (i 1).val < win0_3.index _ (1 : Fin 2) * 128 + 128
    rw [e31]; omega

/-- The result array after the run is that function. -/
theorem final_array (c : Dev nD) : (Run.dats (F := Ideal) m 0 c).arrAt 3 cfg0.N = wholeResult m c :=
  (Run.dats m 0 c).arrAt_eq_of_cover 3 (wholeResult m c) (fun t _ => flushed_eq m c t) covered

/-- Entry (R, k) of the result array after the run. -/
theorem final_at (c : Dev nD) (R : Fin 100000) (k : Fin 128) :
    ((Run.dats (F := Ideal) m 0 c).arrAt 3 cfg0.N : S100000x128.Idx → EReal) (ix2 R k)
      = Cert.MeanConv.stackedAt (Entry.atEntry m c main_v183 : S7x100000x128.Idx → EReal) (Entry.atEntry m c main_v184 : S7x128x128.Idx → EReal)
          (Entry.atEntry m c main_v186 : S1x128.Idx → EReal) R k :=
  congrFun (final_array m c) (ix2 R k)

end Cert.KernelIdeal.Final

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.LibHostColSum.lean ====
/-
  The host's sum over the leading axis of a matrix, read at a column.

  A one-operand reduction with an add body over axis 0 of an [m, n] array, at the extended reals, is at column u the
  initial value plus the sum over the rows k of the entry (k, u) — the column counterpart of a keepdims row sum.
-/
import Idealize.ShloMosaic.Lib.ValueIdx
import Idealize.ShloMosaic.PureOps.Ideal.Laws

noncomputable section

namespace Cert.HostColSum

open Idealize.ShloMosaic Idealize.ShloMosaic.ValueIdx

/-- The host's sum down the rows of a matrix: at column u, the initial value plus Σ_k x (k, u). -/
theorem hostsum_col {m n : ℕ} (x : FVec Ideal ⟨2, ![m, n]⟩ .f32) (init : (⟨0, ![]⟩ : Shape).Idx → Ideal .f32)
    (h' : (⟨2, ![m, n]⟩ : Shape).ReducesTo [0] ⟨1, ![n]⟩) (h : (⟨2, ![m, n]⟩ : Shape).Reduces [0] ⟨1, ![n]⟩)
    (hu : 0 < (⟨0, ![]⟩ : Shape).numel) (u : Fin n) :
    Host.reduceAdd x init h' hu (ix1 u) = init ix0 + ∑ k : Fin m, x (ix2 k u) := by
  unfold Host.reduceAdd
  rw [Ideal.hostReduceAdd_def, Ideal.hostReduceAdd_single h' h]
  refine congrArg₂ (· + ·) (congrArg init (funext fun a => a.elim0))
    (Finset.sum_congr rfl fun k _ => congrArg x (funext fun ax => ?_))
  match ax with
  | ⟨0, _⟩ => rfl
  | ⟨1, _⟩ => rfl

end Cert.HostColSum

end
-- ==== Proof.KernelIdealLayout.lean ====
import proofs.«161684_j41807211660046_2_alg».proof.Proof.Gen.KernelIdeal
import proofs.«161684_j41807211660046_2_alg».proof.Proof.LibLayoutRead
import proofs.«161684_j41807211660046_2_alg».proof.Proof.LibHostColSum
import proofs.«161684_j41807211660046_2_alg».proof.Proof.LibDotRead
import Idealize.ShloMosaic.Lib.Pipeline.Value
import Idealize.ShloMosaic.Lib.ValueIdx
import Idealize.ShloMosaic.Lib.ValueLayout
import Idealize.ShloMosaic.PureOps.Ideal.Laws

/-!
# Three layout facts about the program's host stretch and its matrix product

Before the region the host stacks seven [100000, 128] arrays into one [7, 100000, 128] array — each
is first given a leading axis of one element, then the seven are laid end to end along that axis —,
adds the seven rows of a [7, 128] bias down its leading axis and presents the sum as a row [1, 128].
Inside the region every product is rows × 128 by 128 × columns with no batch axis. This file reads
the stacked array and the bias row at explicit coordinates, and records the coordinate facts of
the product's dimension record.
-/

noncomputable section

namespace Cert.KernelIdeal.Layout

open Cert.KernelIdeal Cert.KernelIdeal.Gen
open Idealize.ShloMosaic Idealize.ShloMosaic.ValueIdx

/-! ## The stack of seven arrays -/

/-- Plane `s` of the stack, at row `R` and lane `j`, is the `s`-th array at `(R, j)`. The seven pieces
    each span one position of the leading axis, so position `s` falls in piece `s`, at offset zero;
    and a [100000, 128] array given a leading unit axis reads, at `(0, R, j)`, the array at
    `(R, j)`. Stated for any proofs of the two shape conditions. -/
theorem stack_at_of {α : Type}
    (hb : S100000x128.BroadcastsInDim S1x100000x128 (![1, 2] : Fin 2 → Fin S1x100000x128.rank))
    (hc : Shape.Concatenates [S1x100000x128, S1x100000x128, S1x100000x128, S1x100000x128, S1x100000x128, S1x100000x128, S1x100000x128] S7x100000x128 0)
    (f : Fin 7 → (S100000x128.Idx → α)) (s : Fin 7) (R : Fin 100000) (j : Fin 128) :
    concatenate S7x100000x128 0
      [⟨S1x100000x128, broadcastInDim S1x100000x128 ![1, 2] hb (f 0)⟩,
       ⟨S1x100000x128, broadcastInDim S1x100000x128 ![1, 2] hb (f 1)⟩,
       ⟨S1x100000x128, broadcastInDim S1x100000x128 ![1, 2] hb (f 2)⟩,
       ⟨S1x100000x128, broadcastInDim S1x100000x128 ![1, 2] hb (f 3)⟩,
       ⟨S1x100000x128, broadcastInDim S1x100000x128 ![1, 2] hb (f 4)⟩,
       ⟨S1x100000x128, broadcastInDim S1x100000x128 ![1, 2] hb (f 5)⟩,
       ⟨S1x100000x128, broadcastInDim S1x100000x128 ![1, 2] hb (f 6)⟩] hc (ix3 s R j)
      = f s (ix2 R j) := by
  let x : Fin 7 → (S1x100000x128.Idx → α) := fun n => broadcastInDim S1x100000x128 ![1, 2] hb (f n)
  let xs : List ((t : Shape) × (t.Idx → α)) :=
    [⟨S1x100000x128, x 0⟩, ⟨S1x100000x128, x 1⟩, ⟨S1x100000x128, x 2⟩, ⟨S1x100000x128, x 3⟩, ⟨S1x100000x128, x 4⟩,
     ⟨S1x100000x128, x 5⟩, ⟨S1x100000x128, x 6⟩]
  -- off the stacking axis the coordinates of (0, R, j) and (s, R, j) agree
  have off : ∀ b : Fin S1x100000x128.rank, b.cast (rfl : S1x100000x128.rank = S7x100000x128.rank) ≠ (0 : Fin S7x100000x128.rank) →
      ((ix3 (0 : Fin 1) R j : S1x100000x128.Idx) b).val = ((ix3 s R j : S7x100000x128.Idx) (b.cast rfl)).val := fun b hb' => by
    match b with
    | ⟨0, _⟩ => exact absurd rfl hb'
    | ⟨1, _⟩ => rfl
    | ⟨2, _⟩ => rfl
  -- piece s of the list is the s-th array with its unit axis, and the pieces before it span s positions
  have hlen : s.val < xs.length := s.isLt
  have hx : xs[s.val]'hlen = ⟨S1x100000x128, x s⟩ := by
    match s with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  have hpre : (((xs.take s.val).map (·.1)).map fun t => if h : t.rank = S7x100000x128.rank then t.size ((0 : Fin S7x100000x128.rank).cast h.symm) else 0).sum = s.val := by
    match s with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  exact (concatenate_apply_piece 0 xs hc (ix3 s R j) s.val hlen S1x100000x128 (x s) hx rfl s.val hpre (ix3 (0 : Fin 1) R j) off
    (Nat.add_zero _)).trans (Cert.LayoutRead.bid_par (f s) hb 0 R j)

/-- The same at the program's own proofs of the two shape conditions. -/
theorem stack_at {α : Type} (f : Fin 7 → (S100000x128.Idx → α)) (s : Fin 7) (R : Fin 100000) (j : Fin 128) :
    concatenate S7x100000x128 0
      [⟨S1x100000x128, broadcastInDim S1x100000x128 ![1, 2] bcast_S100000x128_S1x100000x128_1_2 (f 0)⟩,
       ⟨S1x100000x128, broadcastInDim S1x100000x128 ![1, 2] bcast_S100000x128_S1x100000x128_1_2 (f 1)⟩,
       ⟨S1x100000x128, broadcastInDim S1x100000x128 ![1, 2] bcast_S100000x128_S1x100000x128_1_2 (f 2)⟩,
       ⟨S1x100000x128, broadcastInDim S1x100000x128 ![1, 2] bcast_S100000x128_S1x100000x128_1_2 (f 3)⟩,
       ⟨S1x100000x128, broadcastInDim S1x100000x128 ![1, 2] bcast_S100000x128_S1x100000x128_1_2 (f 4)⟩,
       ⟨S1x100000x128, broadcastInDim S1x100000x128 ![1, 2] bcast_S100000x128_S1x100000x128_1_2 (f 5)⟩,
       ⟨S1x100000x128, broadcastInDim S1x100000x128 ![1, 2] bcast_S100000x128_S1x100000x128_1_2 (f 6)⟩]
      concatenates_S1x100000x128_S1x100000x128_S1x100000x128_S1x100000x128_S1x100000x128_S1x100000x128_S1x100000x128_S7x100000x128_d0
      (ix3 s R j)
      = f s (ix2 R j) :=
  stack_at_of _ _ f s R j

/-! ## The bias row -/

/-- The bias row at lane `k` is the sum of the seven biases at lane `k`: the [128] vector of column
    sums read as a row [1, 128] is the vector at `k`, the host's sum down the rows is its initial
    value plus the column's entries, and the initial value is the constant zero. Stated for any
    proofs of the shape conditions. -/
theorem bias_row_at_of (hb : S128.BroadcastsInDim S1x128 (![1] : Fin 1 → Fin S1x128.rank))
    (hr : S7x128.ReducesTo [0] S128) (hu : 0 < S_.numel)
    (b : FVec Ideal S7x128 .f32) (k : Fin 128) :
    (broadcastInDim S1x128 ![1] hb (Host.reduceAdd b (constant (F := Ideal) S_ .f32 0x00000000#32) hr hu) : S1x128.Idx → EReal) (ix2 0 k)
      = 0 + ∑ s : Fin 7, b (ix2 s k) := by
  rw [Cert.LayoutRead.bid_row _ hb 0 k, Cert.HostColSum.hostsum_col b _ hr (by decide) hu k, constant_apply,
    Ideal.ofBits_zero_f32]

/-- The same at the program's own proofs of the shape conditions. -/
theorem bias_row_at (b : FVec Ideal S7x128 .f32) (k : Fin 128) :
    (broadcastInDim S1x128 ![1] bcast_S128_S1x128_1
        (Host.reduceAdd b (constant (F := Ideal) S_ .f32 0x00000000#32) reducesTo_S7x128_S128_d0 h_S_) : S1x128.Idx → EReal) (ix2 0 k)
      = 0 + ∑ s : Fin 7, b (ix2 s k) :=
  bias_row_at_of _ _ _ b k

/-! ## The product's dimension record -/

/-- The region's product contracts the left operand's lanes with the right operand's rows and has
    no batch axis: one contracted axis of extent 128; the left operand is read at (output row,
    contraction), the right one at (contraction, output column). -/
theorem plain_block_dot : Cert.DotRead.Plain dot_S5000x128_S128x128_S5000x128_1_0_0_1_n_n where
  rank := rfl
  size := rfl
  lhs0 := fun i q => by simp [DotDims.lhsIdx, dot_S5000x128_S128x128_S5000x128_1_0_0_1_n_n]; rfl
  lhs1 := fun i q => by simp [DotDims.lhsIdx, dot_S5000x128_S128x128_S5000x128_1_0_0_1_n_n]; rfl
  rhs0 := fun i q => by simp [DotDims.rhsIdx, dot_S5000x128_S128x128_S5000x128_1_0_0_1_n_n]; rfl
  rhs1 := fun i q => by simp [DotDims.rhsIdx, dot_S5000x128_S128x128_S5000x128_1_0_0_1_n_n]; rfl

end Cert.KernelIdeal.Layout

end
-- ==== Proof.KernelIdealPrefix.lean ====
/- What the three input arrays of program `KernelIdeal`'s region hold when the region is entered.

   Before its region @main runs 230 host operations on the four arguments: the node features x : f32[100000,128], the
   edge lists e : i32[7,2,400000] (for each of seven edge types a row of source nodes and a row of destination nodes), the
   weights W : f32[7,128,128] and the biases b : f32[7,128]. For every edge type the line computes the mean, over the edges
   arriving at a node, of the source nodes' features; the seven means are stacked into one array, the weights are rounded
   to bf16, and the seven bias rows are summed into one row. This module states those three arrays as terms of the
   arguments — each buffer's contents after the line is obtained by following the line backwards from the buffer, an
   operation that writes the buffer contributing its function and every other operation being passed over — and then
   reads the three terms at an index over the extended reals, where a change of float format is the identity. -/
import proofs.«161684_j41807211660046_2_alg».proof.Proof.KernelIdealEntry
import proofs.«161684_j41807211660046_2_alg».proof.Proof.KernelIdealLayout
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Prefix

open Cert.KernelIdeal Cert.KernelIdeal.Gen Cert.KernelIdeal.Entry
open Idealize.ShloMosaic Idealize.ShloMosaic.TcCoe Idealize.ShloMosaic.StableHlo Idealize.ShloMosaic.ValueIdx

variable {F : FTy → Type} [FloatOps F] [Named F]

/-! ## One edge type's segment mean as a term of the node features and the edge array

For one edge type the host line cuts the type's source row and destination row out of the edge array, turns a negative
source number n into n + 100000, gathers the features (rounded to bf16, widened back to f32) of the sources, adds each
gathered row into the row of its destination, counts the edges arriving at each destination, and divides each summed row
by its count — by one where no edge arrives —, rounding the quotient to bf16. The seven types differ only in the two rows
that are cut out. -/

/-- The segment mean of the edge type whose source row is cut at offsets `o1` and destination row at `o2`. -/
def typeMean (o1 o2 : Fin 3 → ℕ) (h1 : S7x2x400000.Slices o1 S1x1x400000) (h2 : S7x2x400000.Slices o2 S1x1x400000)
    (x : (⟨S100000x128, .f32⟩ : BufTy).Contents (Elt F)) (e : (⟨S7x2x400000, .i32⟩ : BufTy).Contents (Elt F)) :
    (⟨S100000x128, .bf16⟩ : BufTy).Contents (Elt F) :=
  truncf .bf16 (Host.divf
    (Host.scatterAdd scatter_S100000x128_S400000x1_S400000x128_1_0_0_1
      (broadcastInDim S100000x128 ![] bcast_S_S100000x128 (constant S_ .f32 0x00000000#32))
      (broadcastInDim S400000x1 ![0] bcast_S400000_S400000x1_0
        (shapeCast _ (extractStridedSlice S1x1x400000 o2 e h2) shapeCasts_S1x1x400000_S400000))
      (extf .f32 (Host.gather gather_S100000x128_S400000x1_S400000x128_1_0_n_n_0_1_1128 (truncf .bf16 x bitsLt_bf16_f32)
        (broadcastInDim S400000x1 ![0] bcast_S400000_S400000x1_0
          (select
            (cmpi .slt (shapeCast _ (extractStridedSlice S1x1x400000 o1 e h1) shapeCasts_S1x1x400000_S400000)
              (broadcastInDim S400000 ![] bcast_S_S400000 (constantI S_ 32 0#32)))
            (addi (shapeCast _ (extractStridedSlice S1x1x400000 o1 e h1) shapeCasts_S1x1x400000_S400000)
              (broadcastInDim S400000 ![] bcast_S_S400000 (constantI S_ 32 100000#32)))
            (shapeCast _ (extractStridedSlice S1x1x400000 o1 e h1) shapeCasts_S1x1x400000_S400000))))
        bitsLt_bf16_f32))
    (broadcastInDim S100000x128 ![0, 1] bcast_S100000x1_S100000x128_0_1
      (broadcastInDim S100000x1 ![0] bcast_S100000_S100000x1_0
        (maximumf
          (Host.scatterAdd scatter_S100000_S400000x1_S400000_n_0_0_1
            (broadcastInDim S100000 ![] bcast_S_S100000 (constant S_ .f32 0x00000000#32))
            (broadcastInDim S400000x1 ![0] bcast_S400000_S400000x1_0
              (shapeCast _ (extractStridedSlice S1x1x400000 o2 e h2) shapeCasts_S1x1x400000_S400000))
            (broadcastInDim S400000 ![] bcast_S_S400000 (constant S_ .f32 0x3F800000#32)))
          (broadcastInDim S100000 ![] bcast_S_S100000 (constant S_ .f32 0x3F800000#32))))))
    bitsLt_bf16_f32

/-- Seven pieces of one shape concatenated: equal pieces give equal concatenations (the side condition on the pieces'
    shapes does not mention their contents). -/
theorem stack7_congr {α : Type} {t s : Shape} (a : Fin t.rank) {x0 x1 x2 x3 x4 x5 x6 y0 y1 y2 y3 y4 y5 y6 : s.Idx → α}
    (h : Shape.Concatenates (([⟨s, x0⟩, ⟨s, x1⟩, ⟨s, x2⟩, ⟨s, x3⟩, ⟨s, x4⟩, ⟨s, x5⟩, ⟨s, x6⟩] : List ((s : Shape) × (s.Idx → α))).map (·.1)) t a)
    (e0 : x0 = y0) (e1 : x1 = y1) (e2 : x2 = y2) (e3 : x3 = y3) (e4 : x4 = y4) (e5 : x5 = y5) (e6 : x6 = y6) :
    concatenate t a [⟨s, x0⟩, ⟨s, x1⟩, ⟨s, x2⟩, ⟨s, x3⟩, ⟨s, x4⟩, ⟨s, x5⟩, ⟨s, x6⟩] h
      = concatenate t a [⟨s, y0⟩, ⟨s, y1⟩, ⟨s, y2⟩, ⟨s, y3⟩, ⟨s, y4⟩, ⟨s, y5⟩, ⟨s, y6⟩] h := by
  subst e0 e1 e2 e3 e4 e5 e6; rfl

/-! ## The three arrays as terms of the arguments

The stacked array is the last concatenation applied to the seven broadcast means; below the concatenation the seven
pieces are independent, and each is followed back through the line on its own: it meets the 31 operations of its type
and the one rounding of the features shared by all types, and passes over everything else. What remains differs from
`typeMean` only in how a reshape's result is spelt (an eta-expansion, the shape read off the result reference) and in
how the launch contents name an argument's location. -/

set_option maxHeartbeats 40000000 in
/-- The array of window 0: the seven types' means, each given a leading unit axis, concatenated along that axis. -/
theorem entry_means (m : (ℓ : Loc nD τ sig) → Buf (Elt F) ℓ) (c : Dev nD) :
    atEntry m c main_v183 = concatenate S7x100000x128 0
      [⟨S1x100000x128, broadcastInDim S1x100000x128 ![1, 2] bcast_S100000x128_S1x100000x128_1_2 (typeMean ![0, 0, 0] ![0, 1, 0] slices_S7x2x400000_S1x1x400000_0_0_0 slices_S7x2x400000_S1x1x400000_0_1_0 (m ((c : Thread nD τ).loc main_arg0)) (m ((c : Thread nD τ).loc main_arg1)))⟩,
       ⟨S1x100000x128, broadcastInDim S1x100000x128 ![1, 2] bcast_S100000x128_S1x100000x128_1_2 (typeMean ![1, 0, 0] ![1, 1, 0] slices_S7x2x400000_S1x1x400000_1_0_0 slices_S7x2x400000_S1x1x400000_1_1_0 (m ((c : Thread nD τ).loc main_arg0)) (m ((c : Thread nD τ).loc main_arg1)))⟩,
       ⟨S1x100000x128, broadcastInDim S1x100000x128 ![1, 2] bcast_S100000x128_S1x100000x128_1_2 (typeMean ![2, 0, 0] ![2, 1, 0] slices_S7x2x400000_S1x1x400000_2_0_0 slices_S7x2x400000_S1x1x400000_2_1_0 (m ((c : Thread nD τ).loc main_arg0)) (m ((c : Thread nD τ).loc main_arg1)))⟩,
       ⟨S1x100000x128, broadcastInDim S1x100000x128 ![1, 2] bcast_S100000x128_S1x100000x128_1_2 (typeMean ![3, 0, 0] ![3, 1, 0] slices_S7x2x400000_S1x1x400000_3_0_0 slices_S7x2x400000_S1x1x400000_3_1_0 (m ((c : Thread nD τ).loc main_arg0)) (m ((c : Thread nD τ).loc main_arg1)))⟩,
       ⟨S1x100000x128, broadcastInDim S1x100000x128 ![1, 2] bcast_S100000x128_S1x100000x128_1_2 (typeMean ![4, 0, 0] ![4, 1, 0] slices_S7x2x400000_S1x1x400000_4_0_0 slices_S7x2x400000_S1x1x400000_4_1_0 (m ((c : Thread nD τ).loc main_arg0)) (m ((c : Thread nD τ).loc main_arg1)))⟩,
       ⟨S1x100000x128, broadcastInDim S1x100000x128 ![1, 2] bcast_S100000x128_S1x100000x128_1_2 (typeMean ![5, 0, 0] ![5, 1, 0] slices_S7x2x400000_S1x1x400000_5_0_0 slices_S7x2x400000_S1x1x400000_5_1_0 (m ((c : Thread nD τ).loc main_arg0)) (m ((c : Thread nD τ).loc main_arg1)))⟩,
       ⟨S1x100000x128, broadcastInDim S1x100000x128 ![1, 2] bcast_S100000x128_S1x100000x128_1_2 (typeMean ![6, 0, 0] ![6, 1, 0] slices_S7x2x400000_S1x1x400000_6_0_0 slices_S7x2x400000_S1x1x400000_6_1_0 (m ((c : Thread nD τ).loc main_arg0)) (m ((c : Thread nD τ).loc main_arg1)))⟩]
      concatenates_S1x100000x128_S1x100000x128_S1x100000x128_S1x100000x128_S1x100000x128_S1x100000x128_S1x100000x128_S7x100000x128_d0 := by
  show StableHlo.after hostOps0 (fun b => m (c, b)) (Proc.devRef .tc main_v183) = _
  simp (disch := decide) only [after_cons, after_nil, nullary_result', unary_result', binary_result', ternary_result', reshape_result', nary_result',
      nullary_result_ne', unary_result_ne', binary_result_ne', ternary_result_ne', reshape_result_ne', nary_result_ne', Matrix.cons_val]
  refine stack7_congr 0 _ ?_ ?_ ?_ ?_ ?_ ?_ ?_
  all_goals
    simp (disch := decide) only [nullary_result', unary_result', binary_result', ternary_result', reshape_result', nary_result',
      nullary_result_ne', unary_result_ne', binary_result_ne', ternary_result_ne', reshape_result_ne', nary_result_ne']
    unfold typeMean
    rfl

set_option maxHeartbeats 4000000 in
/-- The array of window 1: the weights rounded to bf16. -/
theorem entry_weights (m : (ℓ : Loc nD τ sig) → Buf (Elt F) ℓ) (c : Dev nD) :
    atEntry m c main_v184 = truncf .bf16 (m ((c : Thread nD τ).loc main_arg2)) bitsLt_bf16_f32 := by
  show StableHlo.after hostOps0 (fun b => m (c, b)) (Proc.devRef .tc main_v184) = _
  after_results_simp
  all_goals rfl

set_option maxHeartbeats 4000000 in
/-- The array of window 2: the bias rows summed over the types, from zero, as a row [1, 128]. -/
theorem entry_bias (m : (ℓ : Loc nD τ sig) → Buf (Elt F) ℓ) (c : Dev nD) :
    atEntry m c main_v186 = broadcastInDim S1x128 ![1] bcast_S128_S1x128_1 (Host.reduceAdd (m ((c : Thread nD τ).loc main_arg3)) (constant S_ .f32 0x00000000#32) reducesTo_S7x128_S128_d0 h_S_) := by
  show StableHlo.after hostOps0 (fun b => m (c, b)) (Proc.devRef .tc main_v186) = _
  after_results_simp
  all_goals rfl

/-! ## The three arrays read at an index, at the extended reals

At the extended reals a change of float format is the identity, so the weights array is the weights argument entry by
entry; the stacked means array is, at (s, R, j), type s's mean at (R, j); and the bias row is, at column k, zero plus
the sum over the seven types of the bias argument's column k. -/

/-- The seven types' segment means at the extended reals, as one family indexed by the type. -/
def entryMean (x : S100000x128.Idx → EReal) (e : S7x2x400000.Idx → BitVec 32) : Fin 7 → (⟨2, ![100000, 128]⟩ : Shape).Idx → EReal
  | 0 => typeMean (F := Ideal) ![0, 0, 0] ![0, 1, 0] slices_S7x2x400000_S1x1x400000_0_0_0 slices_S7x2x400000_S1x1x400000_0_1_0 x e
  | 1 => typeMean (F := Ideal) ![1, 0, 0] ![1, 1, 0] slices_S7x2x400000_S1x1x400000_1_0_0 slices_S7x2x400000_S1x1x400000_1_1_0 x e
  | 2 => typeMean (F := Ideal) ![2, 0, 0] ![2, 1, 0] slices_S7x2x400000_S1x1x400000_2_0_0 slices_S7x2x400000_S1x1x400000_2_1_0 x e
  | 3 => typeMean (F := Ideal) ![3, 0, 0] ![3, 1, 0] slices_S7x2x400000_S1x1x400000_3_0_0 slices_S7x2x400000_S1x1x400000_3_1_0 x e
  | 4 => typeMean (F := Ideal) ![4, 0, 0] ![4, 1, 0] slices_S7x2x400000_S1x1x400000_4_0_0 slices_S7x2x400000_S1x1x400000_4_1_0 x e
  | 5 => typeMean (F := Ideal) ![5, 0, 0] ![5, 1, 0] slices_S7x2x400000_S1x1x400000_5_0_0 slices_S7x2x400000_S1x1x400000_5_1_0 x e
  | 6 => typeMean (F := Ideal) ![6, 0, 0] ![6, 1, 0] slices_S7x2x400000_S1x1x400000_6_0_0 slices_S7x2x400000_S1x1x400000_6_1_0 x e
  | ⟨_ + 7, h⟩ => absurd h (Nat.not_lt.2 (Nat.le_add_left _ _))

/-- The stacked means at (s, R, j): the slab of type s is its mean with a unit axis put in front. -/
theorem means_at (m : (ℓ : Loc nD τ sig) → Buf (Elt Ideal) ℓ) (c : Dev nD) (s : Fin 7) (R : Fin 100000) (j : Fin 128) :
    (atEntry (F := Ideal) m c main_v183 : S7x100000x128.Idx → EReal) (ix3 s R j)
      = entryMean (m ((c : Thread nD τ).loc main_arg0)) (m ((c : Thread nD τ).loc main_arg1)) s (ix2 R j) := by
  rw [entry_means]
  exact Layout.stack_at (entryMean (m ((c : Thread nD τ).loc main_arg0)) (m ((c : Thread nD τ).loc main_arg1))) s R j

/-- The weights array is the weights argument: rounding to bf16 changes nothing at the extended reals. -/
theorem weights_at (m : (ℓ : Loc nD τ sig) → Buf (Elt Ideal) ℓ) (c : Dev nD) (s : Fin 7) (j k : Fin 128) :
    (atEntry (F := Ideal) m c main_v184 : S7x128x128.Idx → EReal) (ix3 s j k)
      = (m ((c : Thread nD τ).loc main_arg2) : S7x128x128.Idx → EReal) (ix3 s j k) := by
  rw [entry_weights]
  rfl

/-- The bias row at column k: zero plus the seven types' biases at k. -/
theorem bias_at (m : (ℓ : Loc nD τ sig) → Buf (Elt Ideal) ℓ) (c : Dev nD) (k : Fin 128) :
    (atEntry (F := Ideal) m c main_v186 : S1x128.Idx → EReal) (ix2 0 k)
      = 0 + (∑ s : Fin 7, (m ((c : Thread nD τ).loc main_arg3) : S7x128.Idx → EReal) (ix2 s k) : EReal) := by
  rw [entry_bias]
  exact Layout.bias_row_at _ k

end Cert.KernelIdeal.Prefix

end
-- ==== Proof.LibDotRows.lean ====
/-
  Rows of a plain matrix product, computed a block of rows at a time.

  For a two-dimensional product with one contracted axis and no batch axis, entry (r, k) of the host's general dot
  product is the finite sum Σ j, lhs (r, j) · rhs (j, k) — the same sum that a product into a zero accumulator
  computes. Hence a block of rows of the left operand, multiplied by the whole right operand into the zero
  accumulator, holds exactly the corresponding rows of the whole product: row r of the block's product is row R of
  the whole as soon as row r of the block is row R of the left operand. No entry needs to be finite: the two sides are
  the same sum of the same products, term by term.
-/
import Idealize.ShloMosaic.PureOps.Ideal
import Idealize.ShloMosaic.PureOps.Ideal.Laws
import Idealize.ShloMosaic.Lib.ValueIdx
import proofs.«161684_j41807211660046_2_alg».proof.Proof.LibDotRead

noncomputable section

namespace Cert.DotRows

open Idealize.ShloMosaic Idealize.ShloMosaic.ValueIdx Cert.DotRead

/-- Entry (r, k) of the host's plain product is Σ j, lhs (r, j) · rhs (j, k). -/
theorem hostDot_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    Host.dotGeneral d prec lhs rhs (ix2 r k) = ∑ j : Fin n, lhs (ix2 r j) * rhs (ix2 j k) := by
  simp only [Host.dotGeneral]
  rw [Ideal.dotGeneral_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

/-- Row r of a block's product into the zero accumulator is row R of the whole host product, when row r of the block
    is row R of the whole left operand. The block has b rows, the whole M; both products contract the same n
    coordinates against the same right operand. -/
theorem block_row {M b n p : ℕ} {φ₁ φ₂ : FTy}
    (dK : DotDims ⟨2, ![b, n]⟩ ⟨2, ![n, p]⟩ ⟨2, ![b, p]⟩) (hK : Plain dK)
    (dH : DotDims ⟨2, ![M, n]⟩ ⟨2, ![n, p]⟩ ⟨2, ![M, p]⟩) (hH : Plain dH)
    (precK precH : Option ContractPrecision)
    (blk : FVec Ideal ⟨2, ![b, n]⟩ φ₁) (lhs : FVec Ideal ⟨2, ![M, n]⟩ φ₁) (rhs : FVec Ideal ⟨2, ![n, p]⟩ φ₂)
    (r : Fin b) (R : Fin M) (k : Fin p)
    (hrow : ∀ j : Fin n, blk (ix2 r j) = lhs (ix2 R j)) :
    matmul dK precK blk rhs (constant (F := Ideal) ⟨2, ![b, p]⟩ .f32 0x00000000#32) (ix2 r k)
      = Host.dotGeneral dH precH lhs rhs (ix2 R k) := by
  rw [matmul_zero_apply dK hK, hostDot_apply dH hH]
  exact Finset.sum_congr rfl fun j _ => by rw [hrow j]

end Cert.DotRows

end
-- ==== Proof.ReferenceValue.lean ====
/-
  The value of the host program at one entry of its result.

  The program averages, over seven edge types, a per-node mean of gathered rows multiplied by that type's weight
  matrix, plus that type's bias row. It builds the average as a running sum that starts from an array of zeros, adds
  for each type in turn the array (mean · W s) + bias s, and finally divides every entry by the constant 7.

  Reading the result at node R, lane k goes through the operations one by one: the quotient and the sums are
  entrywise; a product of a [100000, 128] array with a [128, 128] matrix has the entry Σ j, lhs (R, j) · rhs (j, k);
  the matrix of type s is plane s of the stacked weights, re-read without its unit axis; the bias array reads, in every
  row, entry k of row s of the stacked biases; the zeros and the constant 7 are scalars spread over the array. What is
  left of each type is its mean array, which is kept as it stands in the program (a scatter-add of gathered rows divided
  by the edge counts floored at one) and only named.
-/
import proofs.«161684_j41807211660046_2_alg».proof.Proof.Gen.ReferenceIdeal.Run
import proofs.«161684_j41807211660046_2_alg».proof.Proof.MeanConvSpec
import proofs.«161684_j41807211660046_2_alg».proof.Proof.LibDotRows
import proofs.«161684_j41807211660046_2_alg».proof.Proof.LibLayoutRead
import Idealize.ShloMosaic.Lib.IdealHost
import Idealize.ShloMosaic.Lib.ValueLayout

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-! ## One operation at a time -/

/-- The product of the program is a plain one: rows by the contracted axis, times the contracted axis by columns. -/
theorem plainDot : Cert.DotRead.Plain dot_S100000x128_S128x128_S100000x128_1_0_0_1_n_n where
  rank := rfl
  size := rfl
  lhs0 := fun _ _ => rfl
  lhs1 := fun i q => DotDims.lhsIdx_val_of_single dot_S100000x128_S128x128_S100000x128_1_0_0_1_n_n (cl := 1) rfl i q
  rhs0 := fun i q => DotDims.rhsIdx_val_of_single dot_S100000x128_S128x128_S100000x128_1_0_0_1_n_n (cr := 0) rfl i q
  rhs1 := fun _ _ => rfl

/-- Plane s of a stack of matrices, cut out and re-read without its unit axis, has at (j, k) the stack's entry
    (s, j, k). -/
theorem weight_at (W : S7x128x128.Idx → EReal) (o : ℕ) (s : Fin 7) (hs : s.val = o)
    (hW : S7x128x128.Slices ![o, 0, 0] S1x128x128) (j k : Fin 128) :
    shapeCast S128x128 (extractStridedSlice S1x128x128 ![o, 0, 0] W hW) shapeCasts_S1x128x128_S128x128 (ix2 j k)
      = W (ix3 s j k) := by
  rw [shapeCast_1ab_ab_apply]
  exact extractStridedSlice_apply _ _ _ _ _ (fun ax => by
    match ax with
    | ⟨0, _⟩ => exact hs
    | ⟨1, _⟩ => exact (Nat.zero_add _).symm
    | ⟨2, _⟩ => exact (Nat.zero_add _).symm)

/-- Row s of a stack of rows, cut out, re-read as a vector, laid out as a row again and repeated over all nodes, has at
    (R, k) the stack's entry (s, k). -/
theorem bias_at (b : S7x128.Idx → EReal) (o : ℕ) (s : Fin 7) (hs : s.val = o)
    (hB : S7x128.Slices ![o, 0] S1x128) (R : Fin 100000) (k : Fin 128) :
    broadcastInDim S100000x128 ![0, 1] bcast_S1x128_S100000x128_0_1
        (broadcastInDim S1x128 ![1] bcast_S128_S1x128_1
          (shapeCast S128 (extractStridedSlice S1x128 ![o, 0] b hB) shapeCasts_S1x128_S128)) (ix2 R k)
      = b (ix2 s k) := by
  rw [Cert.LayoutRead.bid_rows, Cert.LayoutRead.bid_row, shapeCast_1a_a_apply]
  exact slice2_axis0_apply o b hB (0 : Fin 1) k s hs

/-- One type's contribution at (R, k): the contraction of row R of its mean array with column k of its weight plane,
    plus its bias entry. -/
theorem term_at (M : FVec Ideal S100000x128 .f32) (W : FVec Ideal S7x128x128 .f32) (b : FVec Ideal S7x128 .f32) (o : ℕ) (s : Fin 7)
    (hs : s.val = o) (hW : S7x128x128.Slices ![o, 0, 0] S1x128x128) (hB : S7x128.Slices ![o, 0] S1x128)
    (R : Fin 100000) (k : Fin 128) :
    (addf (F := Ideal) (φ := .f32)
        (Host.dotGeneral (F := Ideal) (φ₁ := .f32) (φ₂ := .f32) dot_S100000x128_S128x128_S100000x128_1_0_0_1_n_n none M
          (shapeCast S128x128 (extractStridedSlice S1x128x128 ![o, 0, 0] W hW) shapeCasts_S1x128x128_S128x128))
        (broadcastInDim S100000x128 ![0, 1] bcast_S1x128_S100000x128_0_1
          (broadcastInDim S1x128 ![1] bcast_S128_S1x128_1
            (shapeCast S128 (extractStridedSlice S1x128 ![o, 0] b hB) shapeCasts_S1x128_S128)))) (ix2 R k)
      = (∑ j : Fin 128, M (ix2 R j) * W (ix3 s j k)) + b (ix2 s k) := by
  rw [addf_apply, bias_at b o s hs hB R k, Cert.DotRows.hostDot_apply _ plainDot]
  exact congrArg (· + b (ix2 s k)) (Finset.sum_congr rfl fun j _ => by rw [weight_at W o s hs hW j k])

/-- Adding two arrays adds their entries. -/
theorem add_at (A T : FVec Ideal S100000x128 .f32) (i : S100000x128.Idx) {a t : EReal} (hA : A i = a) (hT : T i = t) :
    addf A T i = a + t := by
  rw [addf_apply, hA, hT]

/-- The quotient of two arrays divides their entries. -/
theorem div_at (A C : FVec Ideal S100000x128 .f32) (i : S100000x128.Idx) {a c : EReal} (hA : A i = a) (hC : C i = c) :
    Host.divf A C i = Ideal.div a c := by
  rw [hostDivf_apply, hA, hC]

/-- The array of zeros the running sum starts from. -/
theorem zeros_at (i : S100000x128.Idx) :
    broadcastInDim S100000x128 ![] bcast_S_S100000x128 (constant (F := Ideal) S_ .f32 0x00000000#32) i = (0 : EReal) := by
  rw [Cert.LayoutRead.bcast_scalar, constant_apply, Ideal.ofBits_zero_f32]

/-- The array the total is divided by holds the real 7 everywhere. -/
theorem seven_at (i : S100000x128.Idx) :
    broadcastInDim S100000x128 ![] bcast_S_S100000x128 (constant (F := Ideal) S_ .f32 0x40E00000#32) i = ((7 : ℝ) : EReal) := by
  rw [Cert.LayoutRead.bcast_scalar, constant_apply, Cert.MeanConv.seven_word]

/-! ## The mean array of one edge type -/

section
variable {F : FTy → Type} [FloatOps F]

/-- The per-node mean of one edge type, as the program computes it: the rows of x at the type's sources (a negative
    source counted from the end) are added into the rows named by the type's destinations, starting from zeros, and
    each row is divided by the number of edges that arrive there, floored at one. The sources are the line of the edge
    array at offsets o1, the destinations the line at offsets o2. -/
def refMean (o1 o2 : Fin 3 → ℕ) (h1 : S7x2x400000.Slices o1 S1x1x400000) (h2 : S7x2x400000.Slices o2 S1x1x400000)
    (x : (⟨S100000x128, .f32⟩ : BufTy).Contents (Elt F)) (e : (⟨S7x2x400000, .i32⟩ : BufTy).Contents (Elt F)) :
    (⟨S100000x128, .f32⟩ : BufTy).Contents (Elt F) :=
  Host.divf (Host.scatterAdd scatter_S100000x128_S400000x1_S400000x128_1_0_0_1 (broadcastInDim S100000x128 ![] bcast_S_S100000x128 (constant S_ .f32 0x00000000#32)) (broadcastInDim S400000x1 ![0] bcast_S400000_S400000x1_0 (shapeCast _ (extractStridedSlice S1x1x400000 o2 e h2) shapeCasts_S1x1x400000_S400000)) (Host.gather gather_S100000x128_S400000x1_S400000x128_1_0_n_n_0_1_1128 x (broadcastInDim S400000x1 ![0] bcast_S400000_S400000x1_0 (select (cmpi .slt (shapeCast _ (extractStridedSlice S1x1x400000 o1 e h1) shapeCasts_S1x1x400000_S400000) (broadcastInDim S400000 ![] bcast_S_S400000 (constantI S_ 32 0#32))) (addi (shapeCast _ (extractStridedSlice S1x1x400000 o1 e h1) shapeCasts_S1x1x400000_S400000) (broadcastInDim S400000 ![] bcast_S_S400000 (constantI S_ 32 100000#32))) (shapeCast _ (extractStridedSlice S1x1x400000 o1 e h1) shapeCasts_S1x1x400000_S400000))))) (broadcastInDim S100000x128 ![0, 1] bcast_S100000x1_S100000x128_0_1 (broadcastInDim S100000x1 ![0] bcast_S100000_S100000x1_0 (maximumf (Host.scatterAdd scatter_S100000_S400000x1_S400000_n_0_0_1 (broadcastInDim S100000 ![] bcast_S_S100000 (constant S_ .f32 0x00000000#32)) (broadcastInDim S400000x1 ![0] bcast_S400000_S400000x1_0 (shapeCast _ (extractStridedSlice S1x1x400000 o2 e h2) shapeCasts_S1x1x400000_S400000)) (broadcastInDim S400000 ![] bcast_S_S400000 (constant S_ .f32 0x3F800000#32))) (broadcastInDim S100000 ![] bcast_S_S100000 (constant S_ .f32 0x3F800000#32)))))

end

/-- The seven mean arrays at the extended reals: type s reads lines (s, 0) and (s, 1) of the edge array. -/
def refMeans (x : S100000x128.Idx → EReal) (e : S7x2x400000.Idx → BitVec 32) :
    Fin 7 → (⟨2, ![100000, 128]⟩ : Shape).Idx → EReal
  | 0 => refMean (F := Ideal) ![0, 0, 0] ![0, 1, 0] slices_S7x2x400000_S1x1x400000_0_0_0 slices_S7x2x400000_S1x1x400000_0_1_0 x e
  | 1 => refMean (F := Ideal) ![1, 0, 0] ![1, 1, 0] slices_S7x2x400000_S1x1x400000_1_0_0 slices_S7x2x400000_S1x1x400000_1_1_0 x e
  | 2 => refMean (F := Ideal) ![2, 0, 0] ![2, 1, 0] slices_S7x2x400000_S1x1x400000_2_0_0 slices_S7x2x400000_S1x1x400000_2_1_0 x e
  | 3 => refMean (F := Ideal) ![3, 0, 0] ![3, 1, 0] slices_S7x2x400000_S1x1x400000_3_0_0 slices_S7x2x400000_S1x1x400000_3_1_0 x e
  | 4 => refMean (F := Ideal) ![4, 0, 0] ![4, 1, 0] slices_S7x2x400000_S1x1x400000_4_0_0 slices_S7x2x400000_S1x1x400000_4_1_0 x e
  | 5 => refMean (F := Ideal) ![5, 0, 0] ![5, 1, 0] slices_S7x2x400000_S1x1x400000_5_0_0 slices_S7x2x400000_S1x1x400000_5_1_0 x e
  | 6 => refMean (F := Ideal) ![6, 0, 0] ![6, 1, 0] slices_S7x2x400000_S1x1x400000_6_0_0 slices_S7x2x400000_S1x1x400000_6_1_0 x e

/-! ## The running sum and the result -/

/-- Type s's share of entry (R, k): row R of its mean array against column k of its weight plane, plus its bias
    entry. -/
def entryAt (V0 : Valuation τ sig (Elt Ideal)) (s : Fin 7) (R : Fin 100000) (k : Fin 128) : EReal :=
  (∑ j : Fin 128, refMeans (V0 (Proc.devRef .tc main_arg0)) (V0 (Proc.devRef .tc main_arg1)) s (ix2 R j)
      * (V0 (Proc.devRef .tc main_arg2) : S7x128x128.Idx → EReal) (ix3 s j k))
    + (V0 (Proc.devRef .tc main_arg3) : S7x128.Idx → EReal) (ix2 s k)

/-- The running sum after the first three types. -/
theorem acc3_at (V0 : Valuation τ sig (Elt Ideal)) (R : Fin 100000) (k : Fin 128) :
    (res_main_v96 V0 : S100000x128.Idx → EReal) (ix2 R k)
      = ((0 + entryAt V0 0 R k) + entryAt V0 1 R k) + entryAt V0 2 R k := by
  unfold res_main_v96
  exact add_at _ _ _ (add_at _ _ _ (add_at _ _ _ (zeros_at _) (term_at _ _ _ 0 0 rfl _ _ R k))
    (term_at _ _ _ 1 1 rfl _ _ R k)) (term_at _ _ _ 2 2 rfl _ _ R k)

/-- The running sum after the first six types. -/
theorem acc6_at (V0 : Valuation τ sig (Elt Ideal)) (R : Fin 100000) (k : Fin 128) :
    (res_main_v192 V0 : S100000x128.Idx → EReal) (ix2 R k)
      = (((((0 + entryAt V0 0 R k) + entryAt V0 1 R k) + entryAt V0 2 R k) + entryAt V0 3 R k) + entryAt V0 4 R k)
          + entryAt V0 5 R k := by
  unfold res_main_v192
  exact add_at _ _ _ (add_at _ _ _ (add_at _ _ _ (acc3_at V0 R k) (term_at _ _ _ 3 3 rfl _ _ R k))
    (term_at _ _ _ 4 4 rfl _ _ R k)) (term_at _ _ _ 5 5 rfl _ _ R k)

/-- The result at node R, lane k: each type's contraction with its own bias entry, accumulated from zero in the order
    of the types, the total divided by 7. -/
theorem result_at (V0 : Valuation τ sig (Elt Ideal)) (R : Fin 100000) (k : Fin 128) :
    (val5 V0 (Proc.devRef .tc main_v226) : S100000x128.Idx → EReal) (ix2 R k)
      = Cert.MeanConv.biasEachThenDivideAt (refMeans (V0 (Proc.devRef .tc main_arg0)) (V0 (Proc.devRef .tc main_arg1)))
          (V0 (Proc.devRef .tc main_arg2)) (V0 (Proc.devRef .tc main_arg3)) R k := by
  rw [val5_main_v226]
  exact div_at _ _ _ (add_at _ _ _ (acc6_at V0 R k) (term_at _ _ _ 6 6 rfl _ _ R k)) (seven_at _)

/-- Every weakly fair execution of the program ends with the result holding, at every node and lane, the average
    above of the launch contents of the four arguments, and with the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (∀ (R : Fin 100000) (k : Fin 128),
        (r.2.mem ((c.tc : Thread nD τ).loc main_v226) : S100000x128.Idx → EReal) (ix2 R k)
          = Cert.MeanConv.biasEachThenDivideAt
              (refMeans (m ((c.tc : Thread nD τ).loc main_arg0)) (m ((c.tc : Thread nD τ).loc main_arg1)))
              (m ((c.tc : Thread nD τ).loc main_arg2)) (m ((c.tc : Thread nD τ).loc main_arg3)) R k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨fun R k => by
      have e := (h c).1.trans (val5_main_v226 (launchContents m c)).symm
      rw [e]
      exact result_at (launchContents m c) R k, (h c).2⟩)
    (Value.run (F := Ideal) m ρ)

end Cert.ReferenceIdeal.RefValue

end
-- ==== Proof.MeanBridge.lean ====
/-
  The two programs' per-type means are one array.

  For one edge type both programs gather rows of the node features by the (normalised) source list, add them into the
  rows named by the destination list, and divide each row by its destination count floored at one. The kernel
  program narrows the features to a 16-bit float format before the gather, widens the gathered rows again, and
  narrows the quotient. On the extended reals a change of float format is the identity on every entry, so removing the
  three changes leaves the reference's term: the dimension records, slices and broadcasts of the two programs are the
  same data.
-/
import proofs.«161684_j41807211660046_2_alg».proof.Proof.KernelIdealPrefix
import proofs.«161684_j41807211660046_2_alg».proof.Proof.ReferenceValue

noncomputable section

namespace Cert.MeanBridge

open Idealize.ShloMosaic Idealize.ShloMosaic.TcCoe

/-- Narrowing an array of extended reals to a smaller float format leaves every entry as it is. -/
theorem narrow_id {s : Shape} (v : FVec Ideal s .f32) (h : FTy.bits .bf16 < FTy.bits .f32) :
    (truncf .bf16 v h : s.Idx → EReal) = v := rfl

/-- Widening it back leaves every entry as it is. -/
theorem widen_id {s : Shape} (v : FVec Ideal s .bf16) (h : FTy.bits .bf16 < FTy.bits .f32) :
    (extf .f32 v h : s.Idx → EReal) = v := rfl

/-- One type's mean, for any pair of slice offsets: the kernel program's term with its three format changes removed is
    the reference's term. -/
theorem typeMean_eq (o1 o2 : Fin 3 → ℕ)
    (h1 : Cert.KernelIdeal.S7x2x400000.Slices o1 Cert.KernelIdeal.S1x1x400000)
    (h2 : Cert.KernelIdeal.S7x2x400000.Slices o2 Cert.KernelIdeal.S1x1x400000)
    (h1' : Cert.ReferenceIdeal.S7x2x400000.Slices o1 Cert.ReferenceIdeal.S1x1x400000)
    (h2' : Cert.ReferenceIdeal.S7x2x400000.Slices o2 Cert.ReferenceIdeal.S1x1x400000)
    (x : Cert.KernelIdeal.S100000x128.Idx → EReal) (e : Cert.KernelIdeal.S7x2x400000.Idx → BitVec 32) :
    (Cert.KernelIdeal.Prefix.typeMean (F := Ideal) o1 o2 h1 h2 x e : Cert.KernelIdeal.S100000x128.Idx → EReal)
      = Cert.ReferenceIdeal.RefValue.refMean (F := Ideal) o1 o2 h1' h2' x e := by
  unfold Cert.KernelIdeal.Prefix.typeMean Cert.ReferenceIdeal.RefValue.refMean
  rw [narrow_id, widen_id, narrow_id]
  rfl

/-- The seven means, type by type. -/
theorem entryMean_eq (x : Cert.KernelIdeal.S100000x128.Idx → EReal) (e : Cert.KernelIdeal.S7x2x400000.Idx → BitVec 32) (s : Fin 7) :
    Cert.KernelIdeal.Prefix.entryMean x e s = Cert.ReferenceIdeal.RefValue.refMeans x e s := by
  match s with
  | ⟨0, _⟩ => exact typeMean_eq _ _ _ _ _ _ x e
  | ⟨1, _⟩ => exact typeMean_eq _ _ _ _ _ _ x e
  | ⟨2, _⟩ => exact typeMean_eq _ _ _ _ _ _ x e
  | ⟨3, _⟩ => exact typeMean_eq _ _ _ _ _ _ x e
  | ⟨4, _⟩ => exact typeMean_eq _ _ _ _ _ _ x e
  | ⟨5, _⟩ => exact typeMean_eq _ _ _ _ _ _ x e
  | ⟨6, _⟩ => exact typeMean_eq _ _ _ _ _ _ x e

end Cert.MeanBridge

end
-- ==== Proof.lean ====
/-
  The certificate of a mean-aggregating convolution over seven edge types (nodes 100000, lanes 128): a tiled
  kernel against its plain reference.

  Both programs form, for each edge type s, the per-node mean M s of the gathered rows of x (a gather by the
  source list, a scatter-add by the destination list, a division by the destination count floored at one). The
  kernel stacks the seven means, and a grid of twenty points each takes five thousand rows of the stack, the whole
  weight stack and one row holding Σ s, b s; a point accumulates the seven products M s · W s from zero, adds that
  row and multiplies by the constant named inv_7, which denotes the rational 1/7. The reference accumulates
  M s · W s + b s over the types from zero and divides by 7.

  The three frames: each kernel program runs its host operations, then the region, whose body loads through
  literal rectangles and stores its whole output block; the reference is a list of host operations. The ledger's
  one entry is the named constant's value. For the algebraic conjunct both results are read at an entry (R, k): the
  kernel's block row is the row of the whole product, a change of float format is the identity on the extended
  reals, and the two arrangements of the average agree because addition there is commutative and associative and
  dividing by the real 7 is multiplying by 1/7 — no input needs to be finite.
-/
import proofs.«161684_j41807211660046_2_alg».proof.Defs
import proofs.«161684_j41807211660046_2_alg».proof.Proof.Gen.Kernel
import proofs.«161684_j41807211660046_2_alg».proof.Proof.Gen.KernelIdeal
import proofs.«161684_j41807211660046_2_alg».proof.Proof.Gen.ReferenceIdeal
import proofs.«161684_j41807211660046_2_alg».proof.Proof.Gen.Pre_finite_inputs
import proofs.«161684_j41807211660046_2_alg».proof.Proof.Gen.ReferenceIdeal.Run
import proofs.«161684_j41807211660046_2_alg».proof.Proof.KernelRun
import proofs.«161684_j41807211660046_2_alg».proof.Proof.KernelIdealRun
import proofs.«161684_j41807211660046_2_alg».proof.Proof.MeanConvSpec
import proofs.«161684_j41807211660046_2_alg».proof.Proof.MeanConvJoin
import proofs.«161684_j41807211660046_2_alg».proof.Proof.KernelIdealResult
import proofs.«161684_j41807211660046_2_alg».proof.Proof.KernelIdealFinal
import proofs.«161684_j41807211660046_2_alg».proof.Proof.KernelIdealPrefix
import proofs.«161684_j41807211660046_2_alg».proof.Proof.ReferenceValue
import proofs.«161684_j41807211660046_2_alg».proof.Proof.MeanBridge
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its four arguments as they were. -/
theorem frame_kernel : Cert.frame_Kernel := fun m ρ _ => Cert.Kernel.Run.frame m ρ

/-- So does the idealized kernel program. -/
theorem frame_kernelIdeal : Cert.frame_KernelIdeal := fun m ρ _ => Cert.KernelIdeal.Run.frame m ρ

/-- The reference is a list of host operations: its run, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The ledger's one entry: the table gives the name inv_7 the value 1/7, and the printed constant is that value on
    the extended reals. -/
theorem preserves : Cert.preserves_Kernel_KernelIdeal :=
  IdealRules.named_const.statement Cert.KernelIdeal.κ "inv_7" .f32 0x3E124925#32 ((1 / 7 : ℝ) : EReal) rfl

/-! ## The kernel's entry in the first arrangement -/

open Cert.MeanConv in
/-- At (R, k) the kernel's result, read over the three arrays its windows stage, is the first arrangement over the
    arguments: the stack's slab s is type s's mean, the staged weights are the weights, and the staged row is zero
    plus the seven bias entries of lane k. -/
theorem kernel_entry (m : (ℓ : Loc Cert.KernelIdeal.nD Cert.KernelIdeal.τ Cert.KernelIdeal.sig) → Buf (Elt Ideal) ℓ) (c : Dev Cert.KernelIdeal.nD)
    (R : Fin 100000) (k : Fin 128) :
    stackedAt (Cert.KernelIdeal.Entry.atEntry m c Cert.KernelIdeal.main_v183 : Cert.KernelIdeal.S7x100000x128.Idx → EReal)
        (Cert.KernelIdeal.Entry.atEntry m c Cert.KernelIdeal.main_v184 : Cert.KernelIdeal.S7x128x128.Idx → EReal)
        (Cert.KernelIdeal.Entry.atEntry m c Cert.KernelIdeal.main_v186 : Cert.KernelIdeal.S1x128.Idx → EReal) R k
      = sumThenScaleAt (Cert.KernelIdeal.Prefix.entryMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3)) R k :=
  stackedAt_eq_of _ _ _ _ _ _ R k (fun s j => Cert.KernelIdeal.Prefix.means_at m c s R j)
    (fun s j => Cert.KernelIdeal.Prefix.weights_at m c s j k) (Cert.KernelIdeal.Prefix.bias_at m c k)

/-! ## The algebraic claim -/

open Cert.MeanConv in
/-- The array both programs end with, from the kernel program's launch memory: at each entry the average, in the
    reference's arrangement, of the seven products and biases. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v187) :=
  fun i => biasEachThenDivideAt (Cert.ReferenceIdeal.RefValue.refMeans (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0) (i 1)

open Cert.MeanConv in
/-- From memories agreeing on the arguments both idealized programs run, leave the arguments unchanged, and end with
    the same array: the kernel's by its blocks and the law joining the two arrangements, the reference's by reading
    its operations at an entry. -/
theorem algebraic : Cert.algebraic_KernelIdeal_ReferenceIdeal := by
  intro m ρ m' ρ' _ hagree
  refine ⟨common m, ?_, ?_⟩
  · refine (θ_run Cert.KernelIdeal.defs _ _).mono (fun r h c => ⟨?_, (h c).2⟩)
      (Cert.KernelIdeal.Result.run_result m ρ)
    refine (h c).1.trans ?_
    funext i
    obtain ⟨R, k, rfl⟩ : ∃ (R : Fin 100000) (k : Fin 128), i = ix2 R k := ⟨i 0, i 1, eq_ix2 i⟩
    refine (Cert.KernelIdeal.Final.final_at m c R k).trans ?_
    rw [kernel_entry m c R k, sumThenScaleAt_eq]
    exact congrArg (fun M => biasEachThenDivideAt M _ _ R k) (funext fun s => Cert.MeanBridge.entryMean_eq _ _ s)
  · refine (θ_run Cert.ReferenceIdeal.defs _ _).mono (fun r h c => ⟨?_, (h c).2⟩)
      (Cert.ReferenceIdeal.RefValue.run_value m' ρ')
    funext i
    obtain ⟨R, k, rfl⟩ : ∃ (R : Fin 100000) (k : Fin 128), i = ix2 R k := ⟨i 0, i 1, eq_ix2 i⟩
    refine ((h c).1 R k).trans ?_
    rw [(hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
